-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x32x256x512 : Shape := ⟨4, ![8, 32, 256, 512]⟩
abbrev S_ : Shape := ⟨0, ![]⟩

class Facts : Prop where
  bcast_S_S8x32x256x512 : S_.BroadcastsInDim S8x32x256x512 (![] : Fin 0 → Fin S8x32x256x512.rank)
  reducesTo_S8x32x256x512_S_d0_1_2_3 : S8x32x256x512.ReducesTo [0, 1, 2, 3] S_
  h_S_ : 0 < S_.numel

variable [Facts]

def fn {F : FTy → Type} [FloatOps F] (main_arg0 : FVec F S8x32x256x512 .f32) : IVec S_ 1 :=
  let main_v0 : FVec F S8x32x256x512 .f32 := Host.absf main_arg0
  let main_cst : FVec F S_ .f32 := constant S_ .f32 0x7F800000#32
  let main_v1 : FVec F S8x32x256x512 .f32 := broadcastInDim S8x32x256x512 ![] bcast_S_S8x32x256x512 main_cst
  let main_v2 : IVec S8x32x256x512 1 := cmpf .olt main_v0 main_v1
  let main_c : IVec S_ 1 := constantI S_ 1 1#1
  let main_v3 : IVec S_ 1 := (fun x v => Host.reduce IntOp.andi x v reducesTo_S8x32x256x512_S_d0_1_2_3 h_S_) main_v2 main_c
  main_v3
-- ==== Kernel.lean ====
abbrev S8x32x256x512 : Shape := ⟨4, ![8, 32, 256, 512]⟩
abbrev S8x4x32x256x512 : Shape := ⟨5, ![8, 4, 32, 256, 512]⟩
abbrev S1x1x256x512 : Shape := ⟨4, ![1, 1, 256, 512]⟩
abbrev S1x4x1x256x512 : Shape := ⟨5, ![1, 4, 1, 256, 512]⟩
abbrev S256x512 : Shape := ⟨2, ![256, 512]⟩
abbrev S64x512 : Shape := ⟨2, ![64, 512]⟩
abbrev S64x1x512 : Shape := ⟨3, ![64, 1, 512]⟩
abbrev S64x4x512 : Shape := ⟨3, ![64, 4, 512]⟩
abbrev S1x1x1x256x512 : Shape := ⟨5, ![1, 1, 1, 256, 512]⟩
abbrev S128x512 : Shape := ⟨2, ![128, 512]⟩
abbrev S64x2x512 : Shape := ⟨3, ![64, 2, 512]⟩
abbrev S192x512 : Shape := ⟨2, ![192, 512]⟩
abbrev S64x3x512 : Shape := ⟨3, ![64, 3, 512]⟩
abbrev S8x128x256x512 : Shape := ⟨4, ![8, 128, 256, 512]⟩

abbrev nBuf : Space → Nat
  | .hbm => 3
  | .vmem => 4
  | .smem => 0
  | _ => 0

abbrev bufTy : (tb : Table) → Fin (tcTables nBuf tb) → BufTy
  | .hbm, ⟨0, _⟩ => ⟨S8x32x256x512, .f32⟩
  | .hbm, ⟨1, _⟩ => ⟨S8x4x32x256x512, .f32⟩
  | .hbm, ⟨2, _⟩ => ⟨S8x128x256x512, .f32⟩
  | .local _ .vmem, ⟨0, _⟩ => ⟨S1x1x256x512, .f32⟩
  | .local _ .vmem, ⟨1, _⟩ => ⟨S1x1x256x512, .f32⟩
  | .local _ .vmem, ⟨2, _⟩ => ⟨S1x4x1x256x512, .f32⟩
  | .local _ .vmem, ⟨3, _⟩ => ⟨S1x4x1x256x512, .f32⟩
  | _, _ => ⟨S8x32x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![8, 32], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

class Facts₀ : Prop where
  inb_S1x1x256x512_S1x1x256x512_0_0_0_0 : ∀ a, (![0, 0, 0, 0] : Fin 4 → Nat) a + S1x1x256x512.size a ≤ S1x1x256x512.size a
  h_S1x1x256x512 : 0 < S1x1x256x512.numel
  shapeCasts_S1x1x256x512_S256x512 : S1x1x256x512.ShapeCasts S256x512
  slices_S256x512_o0_0_S64x512 : S256x512.Slices ![0, 0] S64x512
  slices_S256x512_o1_0_S64x512 : S256x512.Slices ![1, 0] S64x512
  shapeCasts_S64x512_S64x1x512 : S64x512.ShapeCasts S64x1x512
  shapeCasts_S64x1x512_S64x512 : S64x1x512.ShapeCasts S64x512
  concatenates_S64x1x512_S64x1x512_S64x1x512_S64x1x512_S64x4x512_d1 : Shape.Concatenates [S64x1x512, S64x1x512, S64x1x512, S64x1x512] S64x4x512 1
  shapeCasts_S64x4x512_S256x512 : S64x4x512.ShapeCasts S256x512
  inb_S1x4x1x256x512_S1x1x1x256x512_0_0_0_0_0 : ∀ a, (![0, 0, 0, 0, 0] : Fin 5 → Nat) a + S1x1x1x256x512.size a ≤ S1x4x1x256x512.size a
  h_S1x1x1x256x512 : 0 < S1x1x1x256x512.numel
  shapeCasts_S1x1x1x256x512_S256x512 : S1x1x1x256x512.ShapeCasts S256x512
  shapeCasts_S256x512_S1x1x1x256x512 : S256x512.ShapeCasts S1x1x1x256x512
  slices_S256x512_o0_0_S128x512 : S256x512.Slices ![0, 0] S128x512
  slices_S256x512_o1_0_S128x512 : S256x512.Slices ![1, 0] S128x512
  shapeCasts_S128x512_S64x2x512 : S128x512.ShapeCasts S64x2x512
  slices_S64x2x512_o0_0_0_S64x1x512 : S64x2x512.Slices ![0, 0, 0] S64x1x512
  slices_S64x2x512_o0_1_0_S64x1x512 : S64x2x512.Slices ![0, 1, 0] S64x1x512
  inb_S1x4x1x256x512_S1x1x1x256x512_0_1_0_0_0 : ∀ a, (![0, 1, 0, 0, 0] : Fin 5 → Nat) a + S1x1x1x256x512.size a ≤ S1x4x1x256x512.size a
  slices_S256x512_o0_0_S192x512 : S256x512.Slices ![0, 0] S192x512
  slices_S256x512_o1_0_S192x512 : S256x512.Slices ![1, 0] S192x512
  shapeCasts_S192x512_S64x3x512 : S192x512.ShapeCasts S64x3x512
  slices_S64x3x512_o0_0_0_S64x1x512 : S64x3x512.Slices ![0, 0, 0] S64x1x512
  slices_S64x3x512_o0_1_0_S64x1x512 : S64x3x512.Slices ![0, 1, 0] S64x1x512
  slices_S64x3x512_o0_2_0_S64x1x512 : S64x3x512.Slices ![0, 2, 0] S64x1x512
  inb_S1x4x1x256x512_S1x1x1x256x512_0_2_0_0_0 : ∀ a, (![0, 2, 0, 0, 0] : Fin 5 → Nat) a + S1x1x1x256x512.size a ≤ S1x4x1x256x512.size a
  inb_S1x4x1x256x512_S1x1x1x256x512_0_3_0_0_0 : ∀ a, (![0, 3, 0, 0, 0] : Fin 5 → Nat) a + S1x1x1x256x512.size a ≤ S1x4x1x256x512.size a
  shapeCasts_S8x4x32x256x512_S8x128x256x512 : S8x4x32x256x512.ShapeCasts S8x128x256x512
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x256x512.size a ≤ S8x32x256x512.size a
  hwx0_0 : ∀ i : grid0.Coords, EltTy.bits .f32 = 32 ∨ (Rect.block (s := S8x32x256x512) S1x1x256x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x4x1x256x512.size a ≤ S8x4x32x256x512.size a
  hwx0_1 : ∀ i : grid0.Coords, EltTy.bits .f32 = 32 ∨ (Rect.block (s := S8x4x32x256x512) S1x4x1x256x512.size (cc0_transform_1 i) (hinb0_1 i)).WholeWords (EltTy.packing .f32)

variable [Facts₀]

abbrev win0_0 : Pipeline.Window sig grid0 :=
  Pipeline.Window.ofSpec (Memref.whole main_arg0) S1x1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x4x1x256x512.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8x32x256x512 : Shape := ⟨4, ![8, 32, 256, 512]⟩
abbrev S4 : Shape := ⟨1, ![4]⟩
abbrev S_ : Shape := ⟨0, ![]⟩
abbrev S256 : Shape := ⟨1, ![256]⟩
abbrev S1x256 : Shape := ⟨2, ![1, 256]⟩
abbrev S4x1 : Shape := ⟨2, ![4, 1]⟩
abbrev S4x256 : Shape := ⟨2, ![4, 256]⟩
abbrev S4x256x1 : Shape := ⟨3, ![4, 256, 1]⟩
abbrev S8x32x4x256x512 : Shape := ⟨5, ![8, 32, 4, 256, 512]⟩
abbrev S1x1x4x256x1 : Shape := ⟨5, ![1, 1, 4, 256, 1]⟩
abbrev S8x4x32x256x512 : Shape := ⟨5, ![8, 4, 32, 256, 512]⟩
abbrev S8x128x256x512 : Shape := ⟨4, ![8, 128, 256, 512]⟩

abbrev nBuf : Space → Nat
  | .hbm => 73
  | .vmem => 0
  | .smem => 0
  | _ => 0

abbrev bufTy : (tb : Table) → Fin (tcTables nBuf tb) → BufTy
  | .hbm, ⟨0, _⟩ => ⟨S8x32x256x512, .f32⟩
  | .hbm, ⟨1, _⟩ => ⟨S4, .i32⟩
  | .hbm, ⟨2, _⟩ => ⟨S_, .i32⟩
  | .hbm, ⟨3, _⟩ => ⟨S4, .i32⟩
  | .hbm, ⟨4, _⟩ => ⟨S4, .i32⟩
  | .hbm, ⟨5, _⟩ => ⟨S256, .i32⟩
  | .hbm, ⟨6, _⟩ => ⟨S1x256, .i32⟩
  | .hbm, ⟨7, _⟩ => ⟨S4x1, .i32⟩
  | .hbm, ⟨8, _⟩ => ⟨S4x256, .i32⟩
  | .hbm, ⟨9, _⟩ => ⟨S4x256, .i32⟩
  | .hbm, ⟨10, _⟩ => ⟨S4x256, .i32⟩
  | .hbm, ⟨11, _⟩ => ⟨S_, .i32⟩
  | .hbm, ⟨12, _⟩ => ⟨S_, .i32⟩
  | .hbm, ⟨13, _⟩ => ⟨S4x256, .i32⟩
  | .hbm, ⟨14, _⟩ => ⟨S4x256, .i32⟩
  | .hbm, ⟨15, _⟩ => ⟨S4x256, .i32⟩
  | .hbm, ⟨16, _⟩ => ⟨S_, .i32⟩
  | .hbm, ⟨17, _⟩ => ⟨S4x256, .i32⟩
  | .hbm, ⟨18, _⟩ => ⟨S4x256, .i1⟩
  | .hbm, ⟨19, _⟩ => ⟨S4x256, .i32⟩
  | .hbm, ⟨20, _⟩ => ⟨S4x256, .i32⟩
  | .hbm, ⟨21, _⟩ => ⟨S_, .i32⟩
  | .hbm, ⟨22, _⟩ => ⟨S4x256, .i32⟩
  | .hbm, ⟨23, _⟩ => ⟨S4x256, .i1⟩
  | .hbm, ⟨24, _⟩ => ⟨S4x256, .i1⟩
  | .hbm, ⟨25, _⟩ => ⟨S_, .i32⟩
  | .hbm, ⟨26, _⟩ => ⟨S4x256, .i32⟩
  | .hbm, ⟨27, _⟩ => ⟨S4x256, .i32⟩
  | .hbm, ⟨28, _⟩ => ⟨S4x256, .i32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S4x256, .f32⟩
  | .hbm, ⟨34, _⟩ => ⟨S4x256, .f32⟩
  | .hbm, ⟨35, _⟩ => ⟨S_, .f32⟩
  | .hbm, ⟨36, _⟩ => ⟨S4x256, .f32⟩
  | .hbm, ⟨37, _⟩ => ⟨S4x256, .f32⟩
  | .hbm, ⟨38, _⟩ => ⟨S_, .i32⟩
  | .hbm, ⟨39, _⟩ => ⟨S4x256, .i32⟩
  | .hbm, ⟨40, _⟩ => ⟨S4x256, .i32⟩
  | .hbm, ⟨41, _⟩ => ⟨S_, .i32⟩
  | .hbm, ⟨42, _⟩ => ⟨S4x256, .i32⟩
  | .hbm, ⟨43, _⟩ => ⟨S4x256, .i32⟩
  | .hbm, ⟨44, _⟩ => ⟨S_, .i32⟩
  | .hbm, ⟨45, _⟩ => ⟨S4x256, .i32⟩
  | .hbm, ⟨46, _⟩ => ⟨S4x256, .i1⟩
  | .hbm, ⟨47, _⟩ => ⟨S_, .i32⟩
  | .hbm, ⟨48, _⟩ => ⟨S4x256, .i32⟩
  | .hbm, ⟨49, _⟩ => ⟨S4x256, .i32⟩
  | .hbm, ⟨50, _⟩ => ⟨S4x256, .i32⟩
  | .hbm, ⟨51, _⟩ => ⟨S4x256x1, .i32⟩
  | .hbm, ⟨52, _⟩ => ⟨S8x32x4x256x512, .f32⟩
  | .hbm, ⟨53, _⟩ => ⟨S_, .i32⟩
  | .hbm, ⟨54, _⟩ => ⟨S4x256, .i32⟩
  | .hbm, ⟨55, _⟩ => ⟨S4x256, .i1⟩
  | .hbm, ⟨56, _⟩ => ⟨S_, .i32⟩
  | .hbm, ⟨57, _⟩ => ⟨S4x256, .i32⟩
  | .hbm, ⟨58, _⟩ => ⟨S4x256, .i32⟩
  | .hbm, ⟨59, _⟩ => ⟨S4x256, .i32⟩
  | .hbm, ⟨60, _⟩ => ⟨S4x256x1, .i32⟩
  | .hbm, ⟨61, _⟩ => ⟨S8x32x4x256x512, .f32⟩
  | .hbm, ⟨62, _⟩ => ⟨S1x1x4x256x1, .f32⟩
  | .hbm, ⟨63, _⟩ => ⟨S8x32x4x256x512, .f32⟩
  | .hbm, ⟨64, _⟩ => ⟨S8x32x4x256x512, .f32⟩
  | .hbm, ⟨65, _⟩ => ⟨S_, .f32⟩
  | .hbm, ⟨66, _⟩ => ⟨S1x1x4x256x1, .f32⟩
  | .hbm, ⟨67, _⟩ => ⟨S1x1x4x256x1, .f32⟩
  | .hbm, ⟨68, _⟩ => ⟨S8x32x4x256x512, .f32⟩
  | .hbm, ⟨69, _⟩ => ⟨S8x32x4x256x512, .f32⟩
  | .hbm, ⟨70, _⟩ => ⟨S8x32x4x256x512, .f32⟩
  | .hbm, ⟨71, _⟩ => ⟨S8x4x32x256x512, .f32⟩
  | .hbm, ⟨72, _⟩ => ⟨S8x128x256x512, .f32⟩
  | _, _ => ⟨S8x32x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_v5 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_c : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_0 : Ref sig .tc := ⟨.hbm, 25, rfl⟩
abbrev main_call0_v12 : Ref sig .tc := ⟨.hbm, 26, rfl⟩
abbrev main_call0_v13 : Ref sig .tc := ⟨.hbm, 27, rfl⟩
abbrev main_v9 : Ref sig .tc := ⟨.hbm, 28, rfl⟩
abbrev main_v10 : Ref sig .tc := ⟨.hbm, 29, rfl⟩
abbrev main_cst : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_cst_1 : Ref sig .tc := ⟨.hbm, 35, rfl⟩
abbrev main_v15 : Ref sig .tc := ⟨.hbm, 36, rfl⟩
abbrev main_v16 : Ref sig .tc := ⟨.hbm, 37, rfl⟩
abbrev main_c_2 : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_c_4 : Ref sig .tc := ⟨.hbm, 44, rfl⟩
abbrev main_v21 : Ref sig .tc := ⟨.hbm, 45, rfl⟩
abbrev main_v22 : Ref sig .tc := ⟨.hbm, 46, rfl⟩
abbrev main_c_5 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_c_6 : Ref sig .tc := ⟨.hbm, 53, rfl⟩
abbrev main_v28 : Ref sig .tc := ⟨.hbm, 54, rfl⟩
abbrev main_v29 : Ref sig .tc := ⟨.hbm, 55, rfl⟩
abbrev main_c_7 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_cst_8 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩

abbrev nD : Nat := 1
abbrev τ : Topo := Topo.v7x

variable {F : FTy → Type} [FloatOps F]

class Facts₀ : Prop where
  bcast_S_S4 : S_.BroadcastsInDim S4 (![] : Fin 0 → Fin S4.rank)
  bcast_S256_S1x256_1 : S256.BroadcastsInDim S1x256 (![1] : Fin 1 → Fin S1x256.rank)
  bcast_S4_S4x1_0 : S4.BroadcastsInDim S4x1 (![0] : Fin 1 → Fin S4x1.rank)
  bcast_S1x256_S4x256_0_1 : S1x256.BroadcastsInDim S4x256 (![0, 1] : Fin 2 → Fin S4x256.rank)
  bcast_S4x1_S4x256_0_1 : S4x1.BroadcastsInDim S4x256 (![0, 1] : Fin 2 → Fin S4x256.rank)
  bcast_S_S4x256 : S_.BroadcastsInDim S4x256 (![] : Fin 0 → Fin S4x256.rank)
  bcast_S4x256_S4x256x1_0_1 : S4x256.BroadcastsInDim S4x256x1 (![0, 1] : Fin 2 → Fin S4x256x1.rank)
  bcast_S4x256_S1x1x4x256x1_2_3 : S4x256.BroadcastsInDim S1x1x4x256x1 (![2, 3] : Fin 2 → Fin S1x1x4x256x1.rank)
  bcast_S1x1x4x256x1_S8x32x4x256x512_0_1_2_3_4 : S1x1x4x256x1.BroadcastsInDim S8x32x4x256x512 (![0, 1, 2, 3, 4] : Fin 5 → Fin S8x32x4x256x512.rank)
  bcast_S_S1x1x4x256x1 : S_.BroadcastsInDim S1x1x4x256x1 (![] : Fin 0 → Fin S1x1x4x256x1.rank)
  transposes_S8x32x4x256x512_S8x4x32x256x512_0_2_1_3_4 : S8x32x4x256x512.Transposes [0, 2, 1, 3, 4] S8x4x32x256x512
  shapeCasts_S8x4x32x256x512_S8x128x256x512 : S8x4x32x256x512.ShapeCasts S8x128x256x512
  gather_S8x32x256x512_S4x256x1_S8x32x4x256x512_014_2_n_n_2_2_8321512_wf : GatherDims.WF S8x32x256x512 S4x256x1 S8x32x4x256x512 [0, 1, 4] [2] [] [2] [] 2 ![8, 32, 1, 512]

variable [Facts₀]

def gather_S8x32x256x512_S4x256x1_S8x32x4x256x512_014_2_n_n_2_2_8321512 : GatherDims S8x32x256x512 S4x256x1 S8x32x4x256x512 where
  offsetDims := [0, 1, 4]
  collapsedSliceDims := [2]
  operandBatchingDims := []
  startIndicesBatchingDims := []
  startIndexMap := [2]
  indexVectorDim := 2
  sliceSizes := ![8, 32, 1, 512]
  wf := gather_S8x32x256x512_S4x256x1_S8x32x4x256x512_014_2_n_n_2_2_8321512_wf

class Facts : Prop extends Facts₀ where

variable [Facts]
-- ==== Proof.Spec.lean ====
/-
  The two-tap frequency interpolation, stated once, index by index.

  For the harmonic k = kk + 1 (kk = 0..3) and the output frequency row i (0..255) let n = i * k.  The first tap is
  row  n / 4  (floor), the second is row  min (n / 4 + 1, 255),  and the first tap's weight is
  w = 1 - (n / 4 - floor (n / 4)),  a number in {1, 3/4, 1/2, 1/4};  the second tap's weight is 1 - w.
  The result at (b, kk, c, i, t) is  w * x[b, c, tap0, t] + (1 - w) * x[b, c, tap1, t]  on the extended reals.

  Writing i = 4 q + r, the quotient is  n / 4 = k q + (r k) / 4  and the weight depends on r alone; this is what a
  row-grouped evaluation (groups of k input rows against groups of 4 output rows) uses, and the lemma `blockFn_of`
  states it: any expression  a * X n0 + b * X n1  whose four ingredients are those numbers IS the interpolation.

  Also here: the integer chain a host evaluation goes through (product, truncated quotient with the floor
  correction, the clamp of the second tap, the wrap of a negative index), as scalar functions of (kk, i), with their
  values decided over all 4 * 256 pairs; and the five dyadic float patterns the weights are spelt with.
-/
import Idealize.ShloMosaic.PureOps.Ideal
import Idealize.ShloMosaic.Lib.ValueIdx

noncomputable section

namespace Cert.Harmonic

open Idealize.ShloMosaic Idealize.ShloMosaic.ValueIdx

/-! ## The taps and the weight -/

/-- The product i * k. -/
def prodN (kk : Fin 4) (i : Fin 256) : ℕ := i.val * (kk.val + 1)

/-- The first tap's row, floor (i k / 4). -/
def tapN (kk : Fin 4) (i : Fin 256) : ℕ := prodN kk i / 4

theorem tapN_lt (kk : Fin 4) (i : Fin 256) : tapN kk i < 256 := by
  unfold tapN prodN
  have h1 := i.isLt
  have h2 := kk.isLt
  have : i.val * (kk.val + 1) ≤ 255 * 4 := Nat.mul_le_mul (by omega) (by omega)
  omega

def tap0 (kk : Fin 4) (i : Fin 256) : Fin 256 := ⟨tapN kk i, tapN_lt kk i⟩

def tap1 (kk : Fin 4) (i : Fin 256) : Fin 256 := ⟨min (tapN kk i + 1) 255, by omega⟩

/-- The first tap's weight 1 - frac (i k / 4), a real number. -/
def wgt (kk : Fin 4) (i : Fin 256) : ℝ := 1 - (((prodN kk i : ℕ) : ℝ) / 4 - ((tapN kk i : ℕ) : ℝ))

/-- One [256, 512] plane interpolated: output row i of harmonic kk from the plane's rows. -/
def blockFn (X : Fin 256 → Fin 512 → EReal) (kk : Fin 4) (i : Fin 256) (t : Fin 512) : EReal :=
  ((wgt kk i : ℝ) : EReal) * X (tap0 kk i) t + ((1 : EReal) - ((wgt kk i : ℝ) : EReal)) * X (tap1 kk i) t

/-- The whole result in the layout [b, kk, c, i, t]. -/
def G5 (x : (⟨4, ![8, 32, 256, 512]⟩ : Shape).Idx → EReal) : (⟨5, ![8, 4, 32, 256, 512]⟩ : Shape).Idx → EReal :=
  fun j => blockFn (fun a t => x (ix4 (j 0) (j 2) a t)) (j 1) (j 3) (j 4)

theorem G5_apply (x : (⟨4, ![8, 32, 256, 512]⟩ : Shape).Idx → EReal) (b : Fin 8) (kk : Fin 4) (c : Fin 32) (i : Fin 256)
    (t : Fin 512) : G5 x (ix5 b kk c i t) = blockFn (fun a t => x (ix4 b c a t)) kk i t := rfl

/-! ## Row groups: i = 4 q + r -/

/-- Row 4 q + r of the output. -/
def row4 (q : Fin 64) (r : Fin 4) : Fin 256 := ⟨4 * q.val + r.val, by omega⟩

theorem exists_row4 (i : Fin 256) : ∃ (q : Fin 64) (r : Fin 4), i = row4 q r :=
  ⟨⟨i.val / 4, by omega⟩, ⟨i.val % 4, by omega⟩, Fin.ext (by show i.val = 4 * (i.val / 4) + i.val % 4; omega)⟩

/-- With i = 4 q + r and k = kk + 1: n / 4 = k q + (r k) / 4. -/
theorem tapN_row4 (kk : Fin 4) (q : Fin 64) (r : Fin 4) : tapN kk (row4 q r) = (kk.val + 1) * q.val + r.val * (kk.val + 1) / 4 := by
  unfold tapN prodN row4
  show (4 * q.val + r.val) * (kk.val + 1) / 4 = _
  have : (4 * q.val + r.val) * (kk.val + 1) = r.val * (kk.val + 1) + 4 * ((kk.val + 1) * q.val) := by ring
  rw [this, Nat.add_mul_div_left _ _ (by norm_num : 0 < 4)]
  omega

/-- and the weight depends on r alone: 1 - ((r k) mod 4) / 4. -/
theorem wgt_row4 (kk : Fin 4) (q : Fin 64) (r : Fin 4) :
    wgt kk (row4 q r) = 1 - ((r.val * (kk.val + 1) : ℕ) : ℝ) / 4 + ((r.val * (kk.val + 1) / 4 : ℕ) : ℝ) := by
  unfold wgt
  rw [tapN_row4]
  unfold prodN row4
  push_cast
  ring

/-- An expression  a * X n0 + b * X n1  with the interpolation's four numbers IS the interpolation. -/
theorem blockFn_of (X : Fin 256 → Fin 512 → EReal) (kk : Fin 4) (i : Fin 256) (t : Fin 512) (a b : EReal) (n0 n1 : Fin 256)
    (w : ℝ) (hw : wgt kk i = w) (ha : a = ((w : ℝ) : EReal)) (hb : b = (((1 - w : ℝ)) : EReal))
    (h0 : n0.val = tapN kk i) (h1 : n1.val = min (tapN kk i + 1) 255) :
    a * X n0 t + b * X n1 t = blockFn X kk i t := by
  unfold blockFn
  rw [hw, ha, hb, show n0 = tap0 kk i from Fin.ext h0, show n1 = tap1 kk i from Fin.ext h1, EReal.coe_sub, EReal.coe_one]

/-- The harmonic k = 4 copies the plane: the quotient is i itself and the weight is 1. -/
theorem blockFn_three (X : Fin 256 → Fin 512 → EReal) (i : Fin 256) (t : Fin 512) : blockFn X 3 i t = X i t := by
  have hn : tapN 3 i = i.val := by unfold tapN prodN; show i.val * (3 + 1) / 4 = i.val; omega
  have hw : wgt 3 i = 1 := by
    unfold wgt; rw [hn]; unfold prodN; show (1 : ℝ) - (((i.val * (3 + 1) : ℕ) : ℝ) / 4 - (i.val : ℝ)) = 1
    push_cast; ring
  have h0 : (1 : EReal) - (((1 : ℝ)) : EReal) = 0 := by
    rw [← EReal.coe_one, ← EReal.coe_sub, sub_self, EReal.coe_zero]
  unfold blockFn
  rw [hw, show tap0 3 i = i from Fin.ext hn, h0, EReal.coe_one, zero_mul, add_zero, one_mul]

/-! ## The float patterns of the weights -/

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_three_quarters : Ideal.ofBits .f32 0x3F400000#32 = ((3 / 4 : ℝ) : EReal) := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num
theorem ofBits_quarter : Ideal.ofBits .f32 0x3E800000#32 = ((1 / 4 : ℝ) : EReal) := by
  simp [Ideal.ofBits, Ideal.ieee, -EReal.coe_mul]; norm_num
theorem ofBits_four : Ideal.ofBits .f32 0x40800000#32 = ((4 : ℝ) : EReal) := by
  simp [Ideal.ofBits, Ideal.ieee, -EReal.coe_mul]; norm_num

end Cert.Harmonic

end
-- ==== Proof.KernelRows.lean ====
/-
  Layout steps of a row-grouped evaluation, read at one entry.

  A [256, 512] plane is (a) cut to its first 64 k rows, possibly shifted down by one row, (b) regrouped as
  [64, k, 512] (row k q + s becomes entry (q, s)), (c) cut to one s = c, giving a [64, 512] plane whose row q is plane
  row k q + c (+ the shift).  Four such [64, 512] planes are then stacked as [64, 4, 512] and flattened to [256, 512]:
  row 4 q + r of the result is row q of plane r.  Each lemma names the entry read; the arithmetic is row-major position.
-/
import Idealize.ShloMosaic.Lib.Pipeline.Value
import Idealize.ShloMosaic.Lib.ValueIdx
import proofs.«165772_j28363964023074_2_alg».proof.Proof.Spec

noncomputable section

namespace Cert.Harmonic

open Idealize.ShloMosaic Idealize.ShloMosaic.ValueIdx

variable {α : Type}

/-- A [1, 1, 256, 512] block read as a plane. -/
theorem plane_in_apply (v0 : (⟨4, ![1, 1, 256, 512]⟩ : Shape).Idx → α)
    (h : (⟨4, ![1, 1, 256, 512]⟩ : Shape).ShapeCasts ⟨2, ![256, 512]⟩) (a : Fin 256) (t : Fin 512) :
    shapeCast ⟨2, ![256, 512]⟩ v0 h (ix2 a t) = v0 (ix4 (0 : Fin 1) (0 : Fin 1) a t) :=
  shapeCast_apply v0 h _ _ (by
    rw [Shape.rowMajor_val_four, Shape.rowMajor_val_two]
    show ((0 * 1 + 0) * 256 + a.val) * 512 + t.val = a.val * 512 + t.val
    omega)

/-- A plane read as a [1, 1, 1, 256, 512] block. -/
theorem plane_out_apply (p : (⟨2, ![256, 512]⟩ : Shape).Idx → α)
    (h : (⟨2, ![256, 512]⟩ : Shape).ShapeCasts ⟨5, ![1, 1, 1, 256, 512]⟩) (u0 u1 u2 : Fin 1) (i : Fin 256) (t : Fin 512) :
    shapeCast ⟨5, ![1, 1, 1, 256, 512]⟩ p h (ix5 u0 u1 u2 i t) = p (ix2 i t) :=
  shapeCast_apply p h _ _ (by
    have h0 : u0.val = 0 := by omega
    have h1 : u1.val = 0 := by omega
    have h2 : u2.val = 0 := by omega
    rw [Shape.rowMajor_val_five, Shape.rowMajor_val_two]
    show i.val * 512 + t.val = (((u0.val * 1 + u1.val) * 1 + u2.val) * 256 + i.val) * 512 + t.val
    rw [h0, h1, h2]
    omega)

/-- Groups of one row: row q of the plane shifted down by o rows. -/
theorem tap1_apply (v1 : (⟨2, ![256, 512]⟩ : Shape).Idx → α) (o : ℕ) (ho : o ≤ 1)
    (h1 : (⟨2, ![256, 512]⟩ : Shape).Slices ![o, 0] ⟨2, ![64, 512]⟩)
    (h2 : (⟨2, ![64, 512]⟩ : Shape).ShapeCasts ⟨3, ![64, 1, 512]⟩)
    (h3 : (⟨3, ![64, 1, 512]⟩ : Shape).ShapeCasts ⟨2, ![64, 512]⟩) (q : Fin 64) (t : Fin 512) :
    shapeCast ⟨2, ![64, 512]⟩ (shapeCast ⟨3, ![64, 1, 512]⟩ (extractStridedSlice ⟨2, ![64, 512]⟩ ![o, 0] v1 h1) h2) h3 (ix2 q t)
      = v1 (ix2 (⟨1 * q.val + 0 + o, by omega⟩ : Fin 256) t) := by
  refine (shapeCast_apply _ h3 (ix2 q t) (ix3 q (0 : Fin 1) t) ?_).trans ?_
  · rw [Shape.rowMajor_val_three, Shape.rowMajor_val_two]
    show (q.val * 1 + 0) * 512 + t.val = q.val * 512 + t.val
    omega
  refine (shapeCast_apply _ h2 (ix3 q (0 : Fin 1) t) (ix2 q t) ?_).trans ?_
  · rw [Shape.rowMajor_val_three, Shape.rowMajor_val_two]
    show q.val * 512 + t.val = (q.val * 1 + 0) * 512 + t.val
    omega
  refine extractStridedSlice_apply _ _ h1 _ (ix2 (⟨1 * q.val + 0 + o, by omega⟩ : Fin 256) t) (fun a => ?_)
  match a with
  | ⟨0, _⟩ => show 1 * q.val + 0 + o = o + q.val; omega
  | ⟨1, _⟩ => show t.val = 0 + t.val; omega

/-- Rows grouped by 2: row c of group q of the plane shifted down by o rows is plane row 2 q + c + o. -/
theorem tap2_apply (v1 : (⟨2, ![256, 512]⟩ : Shape).Idx → α) (o c : ℕ) (ho : o ≤ 1) (hc : c < 2)
    (h1 : (⟨2, ![256, 512]⟩ : Shape).Slices ![o, 0] ⟨2, ![128, 512]⟩)
    (h2 : (⟨2, ![128, 512]⟩ : Shape).ShapeCasts ⟨3, ![64, 2, 512]⟩)
    (h3 : (⟨3, ![64, 2, 512]⟩ : Shape).Slices ![0, c, 0] ⟨3, ![64, 1, 512]⟩)
    (h4 : (⟨3, ![64, 1, 512]⟩ : Shape).ShapeCasts ⟨2, ![64, 512]⟩) (q : Fin 64) (t : Fin 512) :
    shapeCast ⟨2, ![64, 512]⟩ (extractStridedSlice ⟨3, ![64, 1, 512]⟩ ![0, c, 0]
      (shapeCast ⟨3, ![64, 2, 512]⟩ (extractStridedSlice ⟨2, ![128, 512]⟩ ![o, 0] v1 h1) h2) h3) h4 (ix2 q t)
      = v1 (ix2 (⟨2 * q.val + c + o, by omega⟩ : Fin 256) t) := by
  refine (shapeCast_apply _ h4 (ix2 q t) (ix3 q (0 : Fin 1) t) ?_).trans ?_
  · rw [Shape.rowMajor_val_three, Shape.rowMajor_val_two]
    show (q.val * 1 + 0) * 512 + t.val = q.val * 512 + t.val
    omega
  refine (extractStridedSlice_apply _ _ h3 (ix3 q (0 : Fin 1) t) (ix3 q (⟨c, hc⟩ : Fin 2) t) (fun a => ?_)).trans ?_
  · match a with
    | ⟨0, _⟩ => show q.val = 0 + q.val; omega
    | ⟨1, _⟩ => show c = c + 0; omega
    | ⟨2, _⟩ => show t.val = 0 + t.val; omega
  refine (shapeCast_apply _ h2 (ix3 q (⟨c, hc⟩ : Fin 2) t) (ix2 (⟨2 * q.val + c, by omega⟩ : Fin 128) t) ?_).trans ?_
  · rw [Shape.rowMajor_val_three, Shape.rowMajor_val_two]
    show (2 * q.val + c) * 512 + t.val = (q.val * 2 + c) * 512 + t.val
    omega
  refine extractStridedSlice_apply _ _ h1 _ (ix2 (⟨2 * q.val + c + o, by omega⟩ : Fin 256) t) (fun a => ?_)
  match a with
  | ⟨0, _⟩ => show 2 * q.val + c + o = o + (2 * q.val + c); omega
  | ⟨1, _⟩ => show t.val = 0 + t.val; omega

/-- Rows grouped by 3: row c of group q of the plane shifted down by o rows is plane row 3 q + c + o. -/
theorem tap3_apply (v1 : (⟨2, ![256, 512]⟩ : Shape).Idx → α) (o c : ℕ) (ho : o ≤ 1) (hc : c < 3)
    (h1 : (⟨2, ![256, 512]⟩ : Shape).Slices ![o, 0] ⟨2, ![192, 512]⟩)
    (h2 : (⟨2, ![192, 512]⟩ : Shape).ShapeCasts ⟨3, ![64, 3, 512]⟩)
    (h3 : (⟨3, ![64, 3, 512]⟩ : Shape).Slices ![0, c, 0] ⟨3, ![64, 1, 512]⟩)
    (h4 : (⟨3, ![64, 1, 512]⟩ : Shape).ShapeCasts ⟨2, ![64, 512]⟩) (q : Fin 64) (t : Fin 512) :
    shapeCast ⟨2, ![64, 512]⟩ (extractStridedSlice ⟨3, ![64, 1, 512]⟩ ![0, c, 0]
      (shapeCast ⟨3, ![64, 3, 512]⟩ (extractStridedSlice ⟨2, ![192, 512]⟩ ![o, 0] v1 h1) h2) h3) h4 (ix2 q t)
      = v1 (ix2 (⟨3 * q.val + c + o, by omega⟩ : Fin 256) t) := by
  refine (shapeCast_apply _ h4 (ix2 q t) (ix3 q (0 : Fin 1) t) ?_).trans ?_
  · rw [Shape.rowMajor_val_three, Shape.rowMajor_val_two]
    show (q.val * 1 + 0) * 512 + t.val = q.val * 512 + t.val
    omega
  refine (extractStridedSlice_apply _ _ h3 (ix3 q (0 : Fin 1) t) (ix3 q (⟨c, hc⟩ : Fin 3) t) (fun a => ?_)).trans ?_
  · match a with
    | ⟨0, _⟩ => show q.val = 0 + q.val; omega
    | ⟨1, _⟩ => show c = c + 0; omega
    | ⟨2, _⟩ => show t.val = 0 + t.val; omega
  refine (shapeCast_apply _ h2 (ix3 q (⟨c, hc⟩ : Fin 3) t) (ix2 (⟨3 * q.val + c, by omega⟩ : Fin 192) t) ?_).trans ?_
  · rw [Shape.rowMajor_val_three, Shape.rowMajor_val_two]
    show (3 * q.val + c) * 512 + t.val = (q.val * 3 + c) * 512 + t.val
    omega
  refine extractStridedSlice_apply _ _ h1 _ (ix2 (⟨3 * q.val + c + o, by omega⟩ : Fin 256) t) (fun a => ?_)
  match a with
  | ⟨0, _⟩ => show 3 * q.val + c + o = o + (3 * q.val + c); omega
  | ⟨1, _⟩ => show t.val = 0 + t.val; omega

/-- Plane r of four, as a function of r. -/
def pick4 {β : Type} (r : Fin 4) (a0 a1 a2 a3 : β) : β :=
  match r with | ⟨0, _⟩ => a0 | ⟨1, _⟩ => a1 | ⟨2, _⟩ => a2 | ⟨3, _⟩ => a3

/-- Four [64, 512] planes stacked along a new middle axis and flattened: row 4 q + r is row q of plane r. -/
theorem stack4_apply (a0 a1 a2 a3 : (⟨2, ![64, 512]⟩ : Shape).Idx → α)
    (h0 h1 h2 h3 : (⟨2, ![64, 512]⟩ : Shape).ShapeCasts ⟨3, ![64, 1, 512]⟩)
    (hc : Shape.Concatenates [(⟨3, ![64, 1, 512]⟩ : Shape), ⟨3, ![64, 1, 512]⟩, ⟨3, ![64, 1, 512]⟩, ⟨3, ![64, 1, 512]⟩] ⟨3, ![64, 4, 512]⟩ 1)
    (hs : (⟨3, ![64, 4, 512]⟩ : Shape).ShapeCasts ⟨2, ![256, 512]⟩) (q : Fin 64) (r : Fin 4) (t : Fin 512) :
    shapeCast ⟨2, ![256, 512]⟩ (concatenate ⟨3, ![64, 4, 512]⟩ 1
      [⟨⟨3, ![64, 1, 512]⟩, shapeCast ⟨3, ![64, 1, 512]⟩ a0 h0⟩, ⟨⟨3, ![64, 1, 512]⟩, shapeCast ⟨3, ![64, 1, 512]⟩ a1 h1⟩,
        ⟨⟨3, ![64, 1, 512]⟩, shapeCast ⟨3, ![64, 1, 512]⟩ a2 h2⟩, ⟨⟨3, ![64, 1, 512]⟩, shapeCast ⟨3, ![64, 1, 512]⟩ a3 h3⟩] hc) hs
      (ix2 (row4 q r) t) = pick4 r a0 a1 a2 a3 (ix2 q t) := by
  refine (shapeCast_apply _ hs (ix2 (row4 q r) t) (ix3 q r t) ?_).trans ?_
  · rw [Shape.rowMajor_val_three, Shape.rowMajor_val_two]
    show (q.val * 4 + r.val) * 512 + t.val = (4 * q.val + r.val) * 512 + t.val
    omega
  have cast1 : ∀ (a : (⟨2, ![64, 512]⟩ : Shape).Idx → α) (h : (⟨2, ![64, 512]⟩ : Shape).ShapeCasts ⟨3, ![64, 1, 512]⟩),
      shapeCast ⟨3, ![64, 1, 512]⟩ a h (ix3 q (0 : Fin 1) t) = a (ix2 q t) := fun a h =>
    shapeCast_apply a h _ _ (by
      rw [Shape.rowMajor_val_three, Shape.rowMajor_val_two]
      show q.val * 512 + t.val = (q.val * 1 + 0) * 512 + t.val
      omega)
  have hoff : ∀ b : Fin 3, b.cast (rfl : (⟨3, ![64, 1, 512]⟩ : Shape).rank = (⟨3, ![64, 4, 512]⟩ : Shape).rank) ≠ (1 : Fin 3) →
      ∀ rr : Fin 4, ((ix3 q (0 : Fin 1) t : (⟨3, ![64, 1, 512]⟩ : Shape).Idx) b).val = ((ix3 q rr t : (⟨3, ![64, 4, 512]⟩ : Shape).Idx) (b.cast rfl)).val := by
    intro b hb rr
    match b with
    | ⟨0, _⟩ => rfl
    | ⟨1, _⟩ => exact absurd rfl hb
    | ⟨2, _⟩ => rfl
  let xs : List ((s : Shape) × (s.Idx → α)) :=
    [⟨⟨3, ![64, 1, 512]⟩, shapeCast ⟨3, ![64, 1, 512]⟩ a0 h0⟩, ⟨⟨3, ![64, 1, 512]⟩, shapeCast ⟨3, ![64, 1, 512]⟩ a1 h1⟩,
      ⟨⟨3, ![64, 1, 512]⟩, shapeCast ⟨3, ![64, 1, 512]⟩ a2 h2⟩, ⟨⟨3, ![64, 1, 512]⟩, shapeCast ⟨3, ![64, 1, 512]⟩ a3 h3⟩]
  match r with
  | ⟨0, _⟩ =>
    exact (concatenate_apply_piece (t := ⟨3, ![64, 4, 512]⟩) (1 : Fin 3) xs (show Shape.Concatenates (xs.map (·.1)) ⟨3, ![64, 4, 512]⟩ 1 from hc) _ 0 (by show 0 < 4; omega) ⟨3, ![64, 1, 512]⟩ (shapeCast ⟨3, ![64, 1, 512]⟩ a0 h0) rfl rfl 0 rfl
      (ix3 q (0 : Fin 1) t) (fun b hb => hoff b hb _) rfl).trans (cast1 a0 h0)
  | ⟨1, _⟩ =>
    exact (concatenate_apply_piece (t := ⟨3, ![64, 4, 512]⟩) (1 : Fin 3) xs (show Shape.Concatenates (xs.map (·.1)) ⟨3, ![64, 4, 512]⟩ 1 from hc) _ 1 (by show 1 < 4; omega) ⟨3, ![64, 1, 512]⟩ (shapeCast ⟨3, ![64, 1, 512]⟩ a1 h1) rfl rfl 1 rfl
      (ix3 q (0 : Fin 1) t) (fun b hb => hoff b hb _) rfl).trans (cast1 a1 h1)
  | ⟨2, _⟩ =>
    exact (concatenate_apply_piece (t := ⟨3, ![64, 4, 512]⟩) (1 : Fin 3) xs (show Shape.Concatenates (xs.map (·.1)) ⟨3, ![64, 4, 512]⟩ 1 from hc) _ 2 (by show 2 < 4; omega) ⟨3, ![64, 1, 512]⟩ (shapeCast ⟨3, ![64, 1, 512]⟩ a2 h2) rfl rfl 2 rfl
      (ix3 q (0 : Fin 1) t) (fun b hb => hoff b hb _) rfl).trans (cast1 a2 h2)
  | ⟨3, _⟩ =>
    exact (concatenate_apply_piece (t := ⟨3, ![64, 4, 512]⟩) (1 : Fin 3) xs (show Shape.Concatenates (xs.map (·.1)) ⟨3, ![64, 4, 512]⟩ 1 from hc) _ 3 (by show 3 < 4; omega) ⟨3, ![64, 1, 512]⟩ (shapeCast ⟨3, ![64, 1, 512]⟩ a3 h3) rfl rfl 3 rfl
      (ix3 q (0 : Fin 1) t) (fun b hb => hoff b hb _) rfl).trans (cast1 a3 h3)

end Cert.Harmonic

end
-- ==== Proof.KernelPay.lean ====
/-
  What the kernel body stores for each harmonic, read at one entry of the [256, 512] plane it stores.

  The body holds the input plane v, and for k = 1, 2, 3 builds the output plane from row groups: output row 4 q + r is
  w(r) * v[k q + c(r)] + (1 - w(r)) * v[k q + c(r) + 1]  with  c(r) = (r k) / 4  and  w(r) = 1 - ((r k) mod 4) / 4,  the
  weights spelt as the float patterns of 1, 3/4, 1/2, 1/4, 0.  That is the interpolation `blockFn` at row 4 q + r of
  harmonic k (`blockFn_of`: the four numbers agree).
-/
import proofs.«165772_j28363964023074_2_alg».proof.Proof.Gen.KernelIdeal.Skeleton
import proofs.«165772_j28363964023074_2_alg».proof.Proof.KernelRows

noncomputable section

namespace Cert.KernelIdeal.Pay

open Cert.KernelIdeal Cert.KernelIdeal.Gen Cert.Harmonic Idealize.ShloMosaic Idealize.ShloMosaic.ValueIdx

theorem coe_of {a b : ℝ} {x : EReal} (hx : x = ((a : ℝ) : EReal)) (hab : a = b) : x = ((b : ℝ) : EReal) := hab ▸ hx

/-- Harmonic 1: output row 4 q + r mixes plane rows 1 q + c and 1 q + c + 1, c = (r * 1) / 4, with weights 1 - frac and frac, frac = ((r * 1) mod 4) / 4. -/
theorem k0_pay4_apply (v0 : Vec Ideal S1x1x256x512 .f32) (i : Fin 256) (t : Fin 512) :
    k0_pay4 (F := Ideal) v0 (ix2 i t) = blockFn (fun a t => (k0_pay3 v0) (ix2 a t)) ⟨0, by omega⟩ i t := by
  obtain ⟨q, r, rfl⟩ := exists_row4 i
  unfold k0_pay4
  refine (stack4_apply _ _ _ _ _ _ _ _ _ _ q r t).trans ?_
  match r with
  | ⟨0, _⟩ =>
    refine Eq.trans ?_ (blockFn_of (fun a t => (k0_pay3 v0) (ix2 a t)) ⟨0, by omega⟩ (row4 q ⟨0, by omega⟩) t
      (Ideal.ofBits .f32 0x3F800000#32) (Ideal.ofBits .f32 0x00000000#32)
      (⟨1 * q.val + 0 + 0, by omega⟩ : Fin 256) (⟨1 * q.val + 0 + 1, by omega⟩ : Fin 256) (1)
      (by rw [wgt_row4]; show (1 : ℝ) - ((0 * (0 + 1) : ℕ) : ℝ) / 4 + ((0 * (0 + 1) / 4 : ℕ) : ℝ) = 1; norm_num)
      ofBits_one (coe_of ofBits_zero (by norm_num))
      (by rw [tapN_row4]; show 1 * q.val + 0 + 0 = (0 + 1) * q.val + 0 * (0 + 1) / 4; omega)
      (by rw [tapN_row4]; simp only [Fin.val_mk]; omega))
    exact congrArg₂ (· + ·) (congrArg (Ideal.ofBits .f32 0x3F800000#32 * ·) (tap1_apply (k0_pay3 v0) 0 (by omega) _ _ _ q t))
      (congrArg (Ideal.ofBits .f32 0x00000000#32 * ·) (tap1_apply (k0_pay3 v0) 1 (by omega) _ _ _ q t))
  | ⟨1, _⟩ =>
    refine Eq.trans ?_ (blockFn_of (fun a t => (k0_pay3 v0) (ix2 a t)) ⟨0, by omega⟩ (row4 q ⟨1, by omega⟩) t
      (Ideal.ofBits .f32 0x3F400000#32) (Ideal.ofBits .f32 0x3E800000#32)
      (⟨1 * q.val + 0 + 0, by omega⟩ : Fin 256) (⟨1 * q.val + 0 + 1, by omega⟩ : Fin 256) (3 / 4)
      (by rw [wgt_row4]; show (1 : ℝ) - ((1 * (0 + 1) : ℕ) : ℝ) / 4 + ((1 * (0 + 1) / 4 : ℕ) : ℝ) = 3 / 4; norm_num)
      ofBits_three_quarters (coe_of ofBits_quarter (by norm_num))
      (by rw [tapN_row4]; show 1 * q.val + 0 + 0 = (0 + 1) * q.val + 1 * (0 + 1) / 4; omega)
      (by rw [tapN_row4]; simp only [Fin.val_mk]; omega))
    exact congrArg₂ (· + ·) (congrArg (Ideal.ofBits .f32 0x3F400000#32 * ·) (tap1_apply (k0_pay3 v0) 0 (by omega) _ _ _ q t))
      (congrArg (Ideal.ofBits .f32 0x3E800000#32 * ·) (tap1_apply (k0_pay3 v0) 1 (by omega) _ _ _ q t))
  | ⟨2, _⟩ =>
    refine Eq.trans ?_ (blockFn_of (fun a t => (k0_pay3 v0) (ix2 a t)) ⟨0, by omega⟩ (row4 q ⟨2, by omega⟩) t
      (Ideal.ofBits .f32 0x3F000000#32) (Ideal.ofBits .f32 0x3F000000#32)
      (⟨1 * q.val + 0 + 0, by omega⟩ : Fin 256) (⟨1 * q.val + 0 + 1, by omega⟩ : Fin 256) (1 / 2)
      (by rw [wgt_row4]; show (1 : ℝ) - ((2 * (0 + 1) : ℕ) : ℝ) / 4 + ((2 * (0 + 1) / 4 : ℕ) : ℝ) = 1 / 2; norm_num)
      ofBits_half (coe_of ofBits_half (by norm_num))
      (by rw [tapN_row4]; show 1 * q.val + 0 + 0 = (0 + 1) * q.val + 2 * (0 + 1) / 4; omega)
      (by rw [tapN_row4]; simp only [Fin.val_mk]; omega))
    exact congrArg₂ (· + ·) (congrArg (Ideal.ofBits .f32 0x3F000000#32 * ·) (tap1_apply (k0_pay3 v0) 0 (by omega) _ _ _ q t))
      (congrArg (Ideal.ofBits .f32 0x3F000000#32 * ·) (tap1_apply (k0_pay3 v0) 1 (by omega) _ _ _ q t))
  | ⟨3, _⟩ =>
    refine Eq.trans ?_ (blockFn_of (fun a t => (k0_pay3 v0) (ix2 a t)) ⟨0, by omega⟩ (row4 q ⟨3, by omega⟩) t
      (Ideal.ofBits .f32 0x3E800000#32) (Ideal.ofBits .f32 0x3F400000#32)
      (⟨1 * q.val + 0 + 0, by omega⟩ : Fin 256) (⟨1 * q.val + 0 + 1, by omega⟩ : Fin 256) (1 / 4)
      (by rw [wgt_row4]; show (1 : ℝ) - ((3 * (0 + 1) : ℕ) : ℝ) / 4 + ((3 * (0 + 1) / 4 : ℕ) : ℝ) = 1 / 4; norm_num)
      ofBits_quarter (coe_of ofBits_three_quarters (by norm_num))
      (by rw [tapN_row4]; show 1 * q.val + 0 + 0 = (0 + 1) * q.val + 3 * (0 + 1) / 4; omega)
      (by rw [tapN_row4]; simp only [Fin.val_mk]; omega))
    exact congrArg₂ (· + ·) (congrArg (Ideal.ofBits .f32 0x3E800000#32 * ·) (tap1_apply (k0_pay3 v0) 0 (by omega) _ _ _ q t))
      (congrArg (Ideal.ofBits .f32 0x3F400000#32 * ·) (tap1_apply (k0_pay3 v0) 1 (by omega) _ _ _ q t))

/-- Harmonic 2: output row 4 q + r mixes plane rows 2 q + c and 2 q + c + 1, c = (r * 2) / 4, with weights 1 - frac and frac, frac = ((r * 2) mod 4) / 4. -/
theorem k0_pay6_apply (v1 : FVec Ideal S256x512 .f32) (i : Fin 256) (t : Fin 512) :
    k0_pay6 (F := Ideal) v1 (ix2 i t) = blockFn (fun a t => v1 (ix2 a t)) ⟨1, by omega⟩ i t := by
  obtain ⟨q, r, rfl⟩ := exists_row4 i
  unfold k0_pay6
  refine (stack4_apply _ _ _ _ _ _ _ _ _ _ q r t).trans ?_
  match r with
  | ⟨0, _⟩ =>
    refine Eq.trans ?_ (blockFn_of (fun a t => v1 (ix2 a t)) ⟨1, by omega⟩ (row4 q ⟨0, by omega⟩) t
      (Ideal.ofBits .f32 0x3F800000#32) (Ideal.ofBits .f32 0x00000000#32)
      (⟨2 * q.val + 0 + 0, by omega⟩ : Fin 256) (⟨2 * q.val + 0 + 1, by omega⟩ : Fin 256) (1)
      (by rw [wgt_row4]; show (1 : ℝ) - ((0 * (1 + 1) : ℕ) : ℝ) / 4 + ((0 * (1 + 1) / 4 : ℕ) : ℝ) = 1; norm_num)
      ofBits_one (coe_of ofBits_zero (by norm_num))
      (by rw [tapN_row4]; show 2 * q.val + 0 + 0 = (1 + 1) * q.val + 0 * (1 + 1) / 4; omega)
      (by rw [tapN_row4]; simp only [Fin.val_mk]; omega))
    exact congrArg₂ (· + ·) (congrArg (Ideal.ofBits .f32 0x3F800000#32 * ·) (tap2_apply v1 0 0 (by omega) (by omega) _ _ _ _ q t))
      (congrArg (Ideal.ofBits .f32 0x00000000#32 * ·) (tap2_apply v1 1 0 (by omega) (by omega) _ _ _ _ q t))
  | ⟨1, _⟩ =>
    refine Eq.trans ?_ (blockFn_of (fun a t => v1 (ix2 a t)) ⟨1, by omega⟩ (row4 q ⟨1, by omega⟩) t
      (Ideal.ofBits .f32 0x3F000000#32) (Ideal.ofBits .f32 0x3F000000#32)
      (⟨2 * q.val + 0 + 0, by omega⟩ : Fin 256) (⟨2 * q.val + 0 + 1, by omega⟩ : Fin 256) (1 / 2)
      (by rw [wgt_row4]; show (1 : ℝ) - ((1 * (1 + 1) : ℕ) : ℝ) / 4 + ((1 * (1 + 1) / 4 : ℕ) : ℝ) = 1 / 2; norm_num)
      ofBits_half (coe_of ofBits_half (by norm_num))
      (by rw [tapN_row4]; show 2 * q.val + 0 + 0 = (1 + 1) * q.val + 1 * (1 + 1) / 4; omega)
      (by rw [tapN_row4]; simp only [Fin.val_mk]; omega))
    exact congrArg₂ (· + ·) (congrArg (Ideal.ofBits .f32 0x3F000000#32 * ·) (tap2_apply v1 0 0 (by omega) (by omega) _ _ _ _ q t))
      (congrArg (Ideal.ofBits .f32 0x3F000000#32 * ·) (tap2_apply v1 1 0 (by omega) (by omega) _ _ _ _ q t))
  | ⟨2, _⟩ =>
    refine Eq.trans ?_ (blockFn_of (fun a t => v1 (ix2 a t)) ⟨1, by omega⟩ (row4 q ⟨2, by omega⟩) t
      (Ideal.ofBits .f32 0x3F800000#32) (Ideal.ofBits .f32 0x00000000#32)
      (⟨2 * q.val + 1 + 0, by omega⟩ : Fin 256) (⟨2 * q.val + 1 + 1, by omega⟩ : Fin 256) (1)
      (by rw [wgt_row4]; show (1 : ℝ) - ((2 * (1 + 1) : ℕ) : ℝ) / 4 + ((2 * (1 + 1) / 4 : ℕ) : ℝ) = 1; norm_num)
      ofBits_one (coe_of ofBits_zero (by norm_num))
      (by rw [tapN_row4]; show 2 * q.val + 1 + 0 = (1 + 1) * q.val + 2 * (1 + 1) / 4; omega)
      (by rw [tapN_row4]; simp only [Fin.val_mk]; omega))
    exact congrArg₂ (· + ·) (congrArg (Ideal.ofBits .f32 0x3F800000#32 * ·) (tap2_apply v1 0 1 (by omega) (by omega) _ _ _ _ q t))
      (congrArg (Ideal.ofBits .f32 0x00000000#32 * ·) (tap2_apply v1 1 1 (by omega) (by omega) _ _ _ _ q t))
  | ⟨3, _⟩ =>
    refine Eq.trans ?_ (blockFn_of (fun a t => v1 (ix2 a t)) ⟨1, by omega⟩ (row4 q ⟨3, by omega⟩) t
      (Ideal.ofBits .f32 0x3F000000#32) (Ideal.ofBits .f32 0x3F000000#32)
      (⟨2 * q.val + 1 + 0, by omega⟩ : Fin 256) (⟨2 * q.val + 1 + 1, by omega⟩ : Fin 256) (1 / 2)
      (by rw [wgt_row4]; show (1 : ℝ) - ((3 * (1 + 1) : ℕ) : ℝ) / 4 + ((3 * (1 + 1) / 4 : ℕ) : ℝ) = 1 / 2; norm_num)
      ofBits_half (coe_of ofBits_half (by norm_num))
      (by rw [tapN_row4]; show 2 * q.val + 1 + 0 = (1 + 1) * q.val + 3 * (1 + 1) / 4; omega)
      (by rw [tapN_row4]; simp only [Fin.val_mk]; omega))
    exact congrArg₂ (· + ·) (congrArg (Ideal.ofBits .f32 0x3F000000#32 * ·) (tap2_apply v1 0 1 (by omega) (by omega) _ _ _ _ q t))
      (congrArg (Ideal.ofBits .f32 0x3F000000#32 * ·) (tap2_apply v1 1 1 (by omega) (by omega) _ _ _ _ q t))

/-- Harmonic 3: output row 4 q + r mixes plane rows 3 q + c and 3 q + c + 1, c = (r * 3) / 4, with weights 1 - frac and frac, frac = ((r * 3) mod 4) / 4. -/
theorem k0_pay8_apply (v1 : FVec Ideal S256x512 .f32) (i : Fin 256) (t : Fin 512) :
    k0_pay8 (F := Ideal) v1 (ix2 i t) = blockFn (fun a t => v1 (ix2 a t)) ⟨2, by omega⟩ i t := by
  obtain ⟨q, r, rfl⟩ := exists_row4 i
  unfold k0_pay8
  refine (stack4_apply _ _ _ _ _ _ _ _ _ _ q r t).trans ?_
  match r with
  | ⟨0, _⟩ =>
    refine Eq.trans ?_ (blockFn_of (fun a t => v1 (ix2 a t)) ⟨2, by omega⟩ (row4 q ⟨0, by omega⟩) t
      (Ideal.ofBits .f32 0x3F800000#32) (Ideal.ofBits .f32 0x00000000#32)
      (⟨3 * q.val + 0 + 0, by omega⟩ : Fin 256) (⟨3 * q.val + 0 + 1, by omega⟩ : Fin 256) (1)
      (by rw [wgt_row4]; show (1 : ℝ) - ((0 * (2 + 1) : ℕ) : ℝ) / 4 + ((0 * (2 + 1) / 4 : ℕ) : ℝ) = 1; norm_num)
      ofBits_one (coe_of ofBits_zero (by norm_num))
      (by rw [tapN_row4]; show 3 * q.val + 0 + 0 = (2 + 1) * q.val + 0 * (2 + 1) / 4; omega)
      (by rw [tapN_row4]; simp only [Fin.val_mk]; omega))
    exact congrArg₂ (· + ·) (congrArg (Ideal.ofBits .f32 0x3F800000#32 * ·) (tap3_apply v1 0 0 (by omega) (by omega) _ _ _ _ q t))
      (congrArg (Ideal.ofBits .f32 0x00000000#32 * ·) (tap3_apply v1 1 0 (by omega) (by omega) _ _ _ _ q t))
  | ⟨1, _⟩ =>
    refine Eq.trans ?_ (blockFn_of (fun a t => v1 (ix2 a t)) ⟨2, by omega⟩ (row4 q ⟨1, by omega⟩) t
      (Ideal.ofBits .f32 0x3E800000#32) (Ideal.ofBits .f32 0x3F400000#32)
      (⟨3 * q.val + 0 + 0, by omega⟩ : Fin 256) (⟨3 * q.val + 0 + 1, by omega⟩ : Fin 256) (1 / 4)
      (by rw [wgt_row4]; show (1 : ℝ) - ((1 * (2 + 1) : ℕ) : ℝ) / 4 + ((1 * (2 + 1) / 4 : ℕ) : ℝ) = 1 / 4; norm_num)
      ofBits_quarter (coe_of ofBits_three_quarters (by norm_num))
      (by rw [tapN_row4]; show 3 * q.val + 0 + 0 = (2 + 1) * q.val + 1 * (2 + 1) / 4; omega)
      (by rw [tapN_row4]; simp only [Fin.val_mk]; omega))
    exact congrArg₂ (· + ·) (congrArg (Ideal.ofBits .f32 0x3E800000#32 * ·) (tap3_apply v1 0 0 (by omega) (by omega) _ _ _ _ q t))
      (congrArg (Ideal.ofBits .f32 0x3F400000#32 * ·) (tap3_apply v1 1 0 (by omega) (by omega) _ _ _ _ q t))
  | ⟨2, _⟩ =>
    refine Eq.trans ?_ (blockFn_of (fun a t => v1 (ix2 a t)) ⟨2, by omega⟩ (row4 q ⟨2, by omega⟩) t
      (Ideal.ofBits .f32 0x3F000000#32) (Ideal.ofBits .f32 0x3F000000#32)
      (⟨3 * q.val + 1 + 0, by omega⟩ : Fin 256) (⟨3 * q.val + 1 + 1, by omega⟩ : Fin 256) (1 / 2)
      (by rw [wgt_row4]; show (1 : ℝ) - ((2 * (2 + 1) : ℕ) : ℝ) / 4 + ((2 * (2 + 1) / 4 : ℕ) : ℝ) = 1 / 2; norm_num)
      ofBits_half (coe_of ofBits_half (by norm_num))
      (by rw [tapN_row4]; show 3 * q.val + 1 + 0 = (2 + 1) * q.val + 2 * (2 + 1) / 4; omega)
      (by rw [tapN_row4]; simp only [Fin.val_mk]; omega))
    exact congrArg₂ (· + ·) (congrArg (Ideal.ofBits .f32 0x3F000000#32 * ·) (tap3_apply v1 0 1 (by omega) (by omega) _ _ _ _ q t))
      (congrArg (Ideal.ofBits .f32 0x3F000000#32 * ·) (tap3_apply v1 1 1 (by omega) (by omega) _ _ _ _ q t))
  | ⟨3, _⟩ =>
    refine Eq.trans ?_ (blockFn_of (fun a t => v1 (ix2 a t)) ⟨2, by omega⟩ (row4 q ⟨3, by omega⟩) t
      (Ideal.ofBits .f32 0x3F400000#32) (Ideal.ofBits .f32 0x3E800000#32)
      (⟨3 * q.val + 2 + 0, by omega⟩ : Fin 256) (⟨3 * q.val + 2 + 1, by omega⟩ : Fin 256) (3 / 4)
      (by rw [wgt_row4]; show (1 : ℝ) - ((3 * (2 + 1) : ℕ) : ℝ) / 4 + ((3 * (2 + 1) / 4 : ℕ) : ℝ) = 3 / 4; norm_num)
      ofBits_three_quarters (coe_of ofBits_quarter (by norm_num))
      (by rw [tapN_row4]; show 3 * q.val + 2 + 0 = (2 + 1) * q.val + 3 * (2 + 1) / 4; omega)
      (by rw [tapN_row4]; simp only [Fin.val_mk]; omega))
    exact congrArg₂ (· + ·) (congrArg (Ideal.ofBits .f32 0x3F400000#32 * ·) (tap3_apply v1 0 2 (by omega) (by omega) _ _ _ _ q t))
      (congrArg (Ideal.ofBits .f32 0x3E800000#32 * ·) (tap3_apply v1 1 2 (by omega) (by omega) _ _ _ _ q t))

end Cert.KernelIdeal.Pay

end
-- ==== Proof.KernelBlock.lean ====
/-
  What the kernel body leaves in its output block, as one function of its input block.

  The input block is one [256, 512] plane (a [1, 1, 256, 512] block); the output block [1, 4, 1, 256, 512] holds four
  planes, one per harmonic, each stored whole through the slab at position kk of axis 1.  Slab kk = 0, 1, 2 holds the
  row-grouped interpolation of the plane for harmonic kk + 1; slab 3 holds the plane itself, which is the
  interpolation for harmonic 4 (quotient i, weight 1).  So entry (0, kk, 0, i, t) of the block is the interpolation
  `blockFn` of the plane at (kk, i, t).
-/
import proofs.«165772_j28363964023074_2_alg».proof.Proof.Gen.KernelIdeal.Frame
import proofs.«165772_j28363964023074_2_alg».proof.Proof.KernelPay
import Idealize.ShloMosaic.Lib.Pipeline.Value

noncomputable section

namespace Cert.KernelIdeal.Block

open Cert.KernelIdeal Cert.KernelIdeal.Gen Cert.KernelIdeal.Pay Cert.Harmonic
open Idealize.ShloMosaic Idealize.ShloMosaic.ValueIdx Idealize.ShloMosaic.TcCoe Idealize.SL.Sem

theorem hz4 : (![0, 0, 0, 0] : Fin 4 → Nat) = fun _ => 0 := funext fun a => by fin_cases a <;> rfl

/-- The plane a [1, 1, 256, 512] block holds. -/
def planeOf (x0 : Vec Ideal S1x1x256x512 .f32) : Fin 256 → Fin 512 → EReal :=
  fun a t => x0 (ix4 (0 : Fin 1) (0 : Fin 1) a t)

/-- The output block as a function of the input block: the interpolation of its plane. -/
def blkFn (x0 : Vec Ideal S1x1x256x512 .f32) : S1x4x1x256x512.Idx → EReal :=
  fun y => blockFn (planeOf x0) (y 1) (y 3) (y 4)

theorem blkFn_apply (x0 : Vec Ideal S1x1x256x512 .f32) (u0 : Fin 1) (kk : Fin 4) (u2 : Fin 1) (i : Fin 256) (t : Fin 512) :
    blkFn x0 (ix5 u0 kk u2 i t) = blockFn (planeOf x0) kk i t := rfl

/-- The body's first value, the loaded block as a plane. -/
theorem plane_eq (x0 : Vec Ideal S1x1x256x512 .f32) (a : Fin 256) (t : Fin 512) :
    k0_pay3 (View.ld x0 r0_0) (ix2 a t) = planeOf x0 a t := by
  rw [View.ld_unit_zero (S := S1x1x256x512) hz4]
  unfold k0_pay3
  exact plane_in_apply x0 _ a t

theorem plane_fn_eq (x0 : Vec Ideal S1x1x256x512 .f32) :
    (fun a t => k0_pay3 (View.ld x0 r0_0) (ix2 a t)) = planeOf x0 :=
  funext fun a => funext fun t => plane_eq x0 a t

/-- An entry of the whole-plane slab at position kk of axis 1 sits at (0, kk, 0, i, t) of the block. -/
theorem emb_slab (kk : ℕ) (hk : kk < 4) (inb) (u0 u1 u2 : Fin 1) (i : Fin 256) (t : Fin 512) :
    (Rect.unit (s := S1x4x1x256x512) ![0, kk, 0, 0, 0] S1x1x1x256x512.size inb).emb (ix5 u0 u1 u2 i t)
      = ix5 (0 : Fin 1) (⟨kk, hk⟩ : Fin 4) (0 : Fin 1) i t := by
  funext a
  apply Fin.ext
  rw [Rect.emb_apply, Rect.off_unit, Rect.stride_unit]
  have h0 : u0.val = 0 := by omega
  have h1 : u1.val = 0 := by omega
  have h2 : u2.val = 0 := by omega
  match a with
  | ⟨0, _⟩ => show 0 + 1 * u0.val = 0; omega
  | ⟨1, _⟩ => show kk + 1 * u1.val = kk; omega
  | ⟨2, _⟩ => show 0 + 1 * u2.val = 0; omega
  | ⟨3, _⟩ => show 0 + 1 * i.val = i.val; omega
  | ⟨4, _⟩ => show 0 + 1 * t.val = t.val; omega

theorem ex5 (x : S1x1x1x256x512.Idx) : ∃ (u0 u1 u2 : Fin 1) (i : Fin 256) (t : Fin 512), x = ix5 u0 u1 u2 i t :=
  ⟨x 0, x 1, x 2, x 3, x 4, eq_ix5 x⟩

/-- THE BLOCK: after the body the output window's buffer holds the interpolation of the input block's plane. -/
theorem out_eq (x0 : Vec Ideal S1x1x256x512 .f32) : out0_1 (F := Ideal) x0 = blkFn x0 := by
  funext y
  unfold out0_1
  refine View.canon_apply_of_pieces (Val := Elt Ideal) (e := .f32) (blkFn x0) _ ?_ y (cover0_1 _ _ _ _ y)
  intro p hp x
  simp only [List.mem_cons, List.not_mem_nil, or_false] at hp
  rcases hp with rfl | rfl | rfl | rfl
  · obtain ⟨u0, u1, u2, i, t, rfl⟩ := ex5 x
    show k0_pay2 (k0_pay3 (View.ld x0 r0_0)) (ix5 u0 u1 u2 i t) = blkFn x0 (r0_4.emb (ix5 u0 u1 u2 i t))
    rw [emb_slab 3 (by omega), blkFn_apply]
    unfold k0_pay2
    refine (plane_out_apply _ _ u0 u1 u2 i t).trans ((plane_eq x0 i t).trans ?_)
    exact (blockFn_three (planeOf x0) i t).symm
  · obtain ⟨u0, u1, u2, i, t, rfl⟩ := ex5 x
    show k0_pay1 (k0_pay8 (k0_pay3 (View.ld x0 r0_0))) (ix5 u0 u1 u2 i t) = blkFn x0 (r0_3.emb (ix5 u0 u1 u2 i t))
    rw [emb_slab 2 (by omega), blkFn_apply]
    unfold k0_pay1
    refine (plane_out_apply _ _ u0 u1 u2 i t).trans ((k0_pay8_apply _ i t).trans ?_)
    rw [plane_fn_eq]
  · obtain ⟨u0, u1, u2, i, t, rfl⟩ := ex5 x
    show k0_pay7 (k0_pay6 (k0_pay3 (View.ld x0 r0_0))) (ix5 u0 u1 u2 i t) = blkFn x0 (r0_2.emb (ix5 u0 u1 u2 i t))
    rw [emb_slab 1 (by omega), blkFn_apply]
    unfold k0_pay7
    refine (plane_out_apply _ _ u0 u1 u2 i t).trans ((k0_pay6_apply _ i t).trans ?_)
    rw [plane_fn_eq]
  · obtain ⟨u0, u1, u2, i, t, rfl⟩ := ex5 x
    show k0_pay5 (k0_pay4 (View.ld x0 r0_0)) (ix5 u0 u1 u2 i t) = blkFn x0 (r0_1.emb (ix5 u0 u1 u2 i t))
    rw [emb_slab 0 (by omega), blkFn_apply]
    unfold k0_pay5
    refine (plane_out_apply _ _ u0 u1 u2 i t).trans ((k0_pay4_apply _ i t).trans ?_)
    rw [plane_fn_eq]

end Cert.KernelIdeal.Block

end
-- ==== Proof.KernelArr.lean ====
/-
  From blocks to the array, and the host's final merge of the two channel axes.

  The grid is 8 x 32: point (bi, ci) reads plane (bi, ci) of the argument and writes the block
  [bi, 0..3, ci, 0..255, 0..511] of the [8, 4, 32, 256, 512] result.  Each block is the interpolation of its plane
  (the block lemma), the plane is the argument's at (bi, ci), and the 256 blocks tile the result, so the result array is
  the interpolation `G5` of the argument, entry by entry.  The host then reshapes [8, 4, 32, 256, 512] to
  [8, 128, 256, 512].
-/
import proofs.«165772_j28363964023074_2_alg».proof.Proof.KernelBlock
import Idealize.ShloMosaic.Lib.Pipeline.Value
import Idealize.ShloMosaic.Lib.StableHlo.Run

noncomputable section

namespace Cert.KernelIdeal.Arr

open Cert.KernelIdeal Cert.KernelIdeal.Gen Cert.KernelIdeal.Block Cert.Harmonic
open Idealize.ShloMosaic Idealize.ShloMosaic.ValueIdx Idealize.ShloMosaic.TcCoe Idealize.SL.Sem
open Idealize.ShloMosaic.Pipeline (Dat)

variable (m : (ℓ : Loc nD τ sig) → Buf (Elt Ideal) ℓ) (ρ : Dev nD → PrngReg)

/-- The printed index maps over the grid: the input block index is (bi, ci, 0, 0), the output's (bi, 0, ci, 0, 0). -/
theorem idx_facts : ∀ t : Fin cfg0.N,
    win0_0.index t (0 : Fin 4) = win0_1.index t (0 : Fin 5) ∧ win0_0.index t (1 : Fin 4) = win0_1.index t (2 : Fin 5)
    ∧ win0_0.index t (2 : Fin 4) = 0 ∧ win0_0.index t (3 : Fin 4) = 0
    ∧ win0_1.index t (1 : Fin 5) = 0 ∧ win0_1.index t (3 : Fin 5) = 0 ∧ win0_1.index t (4 : Fin 5) = 0
    ∧ win0_1.index t (0 : Fin 5) < 8 ∧ win0_1.index t (2 : Fin 5) < 32 :=
  (by decide +kernel : ∀ t : Fin grid0.N, _)

/-- Every (bi, ci) is some point's. -/
theorem idx_onto : ∀ (b : Fin 8) (c : Fin 32), ∃ t : Fin cfg0.N, win0_1.index t = ![b.val, 0, c.val, 0, 0] :=
  (by decide +kernel : ∀ (b : Fin 8) (c : Fin 32), ∃ t : Fin grid0.N, win0_1.index t = ![b.val, 0, c.val, 0, 0])

/-- The argument array as the region finds it, as a function of its index. -/
abbrev argArr (c : Dev nD) : S8x32x256x512.Idx → EReal := V m c main_arg0

/-- WHAT POINT t WRITES BACK is block t of the interpolation of the argument. -/
theorem flushed_eq (c : Dev nD) (t : Fin cfg0.N) :
    (dats m 0 c).flushed 1 t = ((cfg0.win 1).blk t).view.read (Elt Ideal) (G5 (argArr m c)) := by
  show (cfg0.win 1).cut (grid0.coords t) ((dats m 0 c).after 1 t) = _
  rw [after0_1, out_eq]
  obtain ⟨e0, e1, e2, e3, e4, e5, e6, e7, e8⟩ := idx_facts t
  funext y
  obtain ⟨u0, kk, u2, i, s, rfl⟩ : ∃ (u0 : Fin 1) (kk : Fin 4) (u2 : Fin 1) (i : Fin 256) (s : Fin 512), y = ix5 u0 kk u2 i s :=
    ⟨y 0, y 1, y 2, y 3, y 4, eq_ix5 y⟩
  show blkFn (iblk m c 0 t) (ix5 u0 kk u2 i s) = G5 (argArr m c) (((cfg0.win 1).blk t).view.emb (ix5 u0 kk u2 i s))
  have h0 : u0.val = 0 := by omega
  have h2 : u2.val = 0 := by omega
  have he : ((cfg0.win 1).blk t).view.emb (ix5 u0 kk u2 i s)
      = ix5 (⟨win0_1.index t (0 : Fin 5), e7⟩ : Fin 8) kk (⟨win0_1.index t (2 : Fin 5), e8⟩ : Fin 32) i s := by
    funext a
    apply Fin.ext
    match a with
    | ⟨0, _⟩ => show win0_1.index t (0 : Fin 5) * 1 + 1 * u0.val = win0_1.index t (0 : Fin 5); omega
    | ⟨1, _⟩ => show win0_1.index t (1 : Fin 5) * 4 + 1 * kk.val = kk.val; omega
    | ⟨2, _⟩ => show win0_1.index t (2 : Fin 5) * 1 + 1 * u2.val = win0_1.index t (2 : Fin 5); omega
    | ⟨3, _⟩ => show win0_1.index t (3 : Fin 5) * 256 + 1 * i.val = i.val; omega
    | ⟨4, _⟩ => show win0_1.index t (4 : Fin 5) * 512 + 1 * s.val = s.val; omega
  rw [he, G5_apply, blkFn_apply]
  refine congrArg (fun X => blockFn X kk i s) (funext fun a => funext fun s' => ?_)
  show V m c main_arg0 (((cfg0.win 0).blk t).view.emb (ix4 (0 : Fin 1) (0 : Fin 1) a s')) = V m c main_arg0 _
  refine congrArg (V m c main_arg0) (funext fun a' => Fin.ext ?_)
  match a' with
  | ⟨0, _⟩ => show win0_0.index t (0 : Fin 4) * 1 + 1 * 0 = win0_1.index t (0 : Fin 5); omega
  | ⟨1, _⟩ => show win0_0.index t (1 : Fin 4) * 1 + 1 * 0 = win0_1.index t (2 : Fin 5); omega
  | ⟨2, _⟩ => show win0_0.index t (2 : Fin 4) * 256 + 1 * a.val = a.val; omega
  | ⟨3, _⟩ => show win0_0.index t (3 : Fin 4) * 512 + 1 * s'.val = s'.val; omega

/-- An index of the result is in point t's block iff each coordinate is in the block's range. -/
theorem mem_blk (t : Fin cfg0.N) (i : S8x4x32x256x512.Idx) :
    i ∈ ((cfg0.win 1).blk t).view.set ↔ ∀ a : Fin 5, win0_1.index t a * S1x4x1x256x512.size a ≤ (i a).val
      ∧ (i a).val < win0_1.index t a * S1x4x1x256x512.size a + S1x4x1x256x512.size a := by
  show i ∈ ((View.whole main_v0).slice (win0_1.rect t)).set ↔ _
  rw [View.set_slice_whole, Rect.mem_set_unit]
  exact Iff.rfl

/-- The blocks tile the result: entry (b, kk, c, i, s) is in the block of the point (b, c). -/
theorem cover (i : S8x4x32x256x512.Idx) : ∃ t : Fin cfg0.N, (cfg0.win 1).flush t = true ∧ i ∈ ((cfg0.win 1).blk t).view.set := by
  obtain ⟨t, ht⟩ := idx_onto ⟨(i 0).val, (i 0).isLt⟩ ⟨(i 2).val, (i 2).isLt⟩
  refine ⟨t, flush0_1 t, ?_⟩
  rw [mem_blk]
  have q0 : win0_1.index t (0 : Fin 5) = (i 0).val := congrFun ht 0
  have q1 : win0_1.index t (1 : Fin 5) = 0 := congrFun ht 1
  have q2 : win0_1.index t (2 : Fin 5) = (i 2).val := congrFun ht 2
  have q3 : win0_1.index t (3 : Fin 5) = 0 := congrFun ht 3
  have q4 : win0_1.index t (4 : Fin 5) = 0 := congrFun ht 4
  have b1 : (i 1).val < 4 := (i 1).isLt
  have b3 : (i 3).val < 256 := (i 3).isLt
  have b4 : (i 4).val < 512 := (i 4).isLt
  intro a
  match a with
  | ⟨0, _⟩ => show win0_1.index t (0 : Fin 5) * 1 ≤ (i 0).val ∧ (i 0).val < win0_1.index t (0 : Fin 5) * 1 + 1; omega
  | ⟨1, _⟩ => show win0_1.index t (1 : Fin 5) * 4 ≤ (i 1).val ∧ (i 1).val < win0_1.index t (1 : Fin 5) * 4 + 4; omega
  | ⟨2, _⟩ => show win0_1.index t (2 : Fin 5) * 1 ≤ (i 2).val ∧ (i 2).val < win0_1.index t (2 : Fin 5) * 1 + 1; omega
  | ⟨3, _⟩ => show win0_1.index t (3 : Fin 5) * 256 ≤ (i 3).val ∧ (i 3).val < win0_1.index t (3 : Fin 5) * 256 + 256; omega
  | ⟨4, _⟩ => show win0_1.index t (4 : Fin 5) * 512 ≤ (i 4).val ∧ (i 4).val < win0_1.index t (4 : Fin 5) * 512 + 512; omega

/-- THE ARRAY after the region: the interpolation of the argument. -/
theorem final (c : Dev nD) : (dats m 0 c).arrAt 1 cfg0.N = G5 (argArr m c) :=
  (dats m 0 c).arrAt_eq_of_cover 1 (G5 (argArr m c)) (fun t _ => flushed_eq m c t) cover

/-- The host's last line on that array: the two channel axes merged. -/
theorem tail_eq (c : Dev nD) :
    Pipeline.afterTail₀ cfgs (dats m) 0 (V0 m) [hostOps1] c main_v1
      = shapeCast S8x128x256x512 (G5 (m ((c : Thread nD τ).loc main_arg0))) shapeCasts_S8x4x32x256x512_S8x128x256x512 := by
  unfold Pipeline.afterTail₀
  show StableHlo.after hostOps1 _ (Proc.devRef .tc main_v1) = _
  after_results
  rw [(Pipeline.withArrays_arr spec0 launch0.win.arr_inj c _ _ 1).trans (final m c)]
  rfl

theorem main_v1_rest : main_v1 ∈ Pipeline.restRefs sig (cfgs 0).spec :=
  Pipeline.mem_restRefs_of main_v1 rfl (fun w => by fin_cases w <;> decide)

/-- THE RUN, READ: the program's result is the interpolation of its argument with the channel axes merged; the
    argument is unchanged. -/
theorem run : θ_run defs (onTc (τ := τ) (main (F := Ideal))) ⟨m, fun _ => 0, ρ⟩ fun r => ∀ c : Dev nD,
      r.2.mem ((c : Thread nD τ).loc main_v1)
          = shapeCast S8x128x256x512 (G5 (m ((c : Thread nD τ).loc main_arg0))) shapeCasts_S8x4x32x256x512_S8x128x256x512
      ∧ r.2.mem ((c : Thread nD τ).loc main_arg0) = m ((c : Thread nD τ).loc main_arg0) :=
  (θ_run defs _ _).mono (fun r h c => ⟨((h c).2 main_v1 main_v1_rest).trans (tail_eq m c),
      ((h c).1 0).trans (((dats m 0 c).arrAt_in 0 rfl _).trans ((A_eq m c 0).trans (V_main_arg0 m c)))⟩)
    (run_main m ρ)

end Cert.KernelIdeal.Arr

end
-- ==== Proof.RefTerm.lean ====
/-
  The reference's result as ONE pure term of its argument array.

  The reference builds, on the host, for every harmonic k = 1..4 (row kk = k-1 of a [4,256] table) and every
  output frequency row i: the integer product i*k, its floor quotient by 4 (jnp's floor_divide: truncated
  division corrected by one when the signs differ and the remainder is non-zero), the fractional part
  i*k/4 - floor(i*k/4) as a float, the first tap's weight w = 1 - frac, and the two tap rows floor(i*k/4) and
  min(floor(i*k/4)+1, 255) (each wrapped once if negative, as jnp indexing does).  It gathers the two tap rows of x
  along the frequency axis, mixes them as w*g0 + (1-w)*g1 in the layout [b, c, k, i, t], transposes to
  [b, k, c, i, t] and merges (k, c) into one channel axis.
-/
import proofs.«165772_j28363964023074_2_alg».proof.ReferenceIdeal

noncomputable section

namespace Cert.ReferenceIdeal.RefTerm

open Cert.ReferenceIdeal Idealize.ShloMosaic
open Facts₀ Facts

variable {F : FTy → Type} [FloatOps F] [Facts]

/-- The scalar 4 the products are divided by, as the reference's converted constant. -/
def four : IVec S_ 32 := id (constantI S_ 32 4#32)

/-- prod[kk, i] = i * (kk + 1): the row index times the harmonic number. -/
def prodI : IVec S4x256 32 :=
  muli
    (broadcastInDim S4x256 ![0, 1] bcast_S1x256_S4x256_0_1
      (broadcastInDim S1x256 ![1] bcast_S256_S1x256_1 (iotaInDim S256 32 0)))
    (broadcastInDim S4x256 ![0, 1] bcast_S4x1_S4x256_0_1
      (broadcastInDim S4x1 ![0] bcast_S4_S4x1_0
        (addi (broadcastInDim S4 ![] bcast_S_S4 (constantI S_ 32 1#32)) (iotaInDim S4 32 0))))

/-- The truncated quotient prod / 4. -/
def truncQ : IVec S4x256 32 := Host.divsi prodI (broadcastInDim S4x256 ![] bcast_S_S4x256 four)

/-- jnp's floor_divide(prod, 4): the truncated quotient, less one where the signs of prod and 4 differ and the
    remainder is not zero. -/
def floorQ : IVec S4x256 32 :=
  select
    (andi
      (cmpi .ne (signi prodI) (broadcastInDim S4x256 ![] bcast_S_S4x256 (signi four)))
      (cmpi .ne (Host.remsi prodI (broadcastInDim S4x256 ![] bcast_S_S4x256 four))
        (broadcastInDim S4x256 ![] bcast_S_S4x256 (constantI S_ 32 0#32))))
    (subi truncQ (broadcastInDim S4x256 ![] bcast_S_S4x256 (constantI S_ 32 1#32)))
    truncQ

/-- The first tap's weight w = 1 - (prod / 4 - floor(prod / 4)), as floats. -/
def wRef : FVec F S4x256 .f32 :=
  subf (broadcastInDim S4x256 ![] bcast_S_S4x256 (constant S_ .f32 0x3F800000#32))
    (subf
      (Host.divf (sitofp .f32 prodI) (broadcastInDim S4x256 ![] bcast_S_S4x256 (constant S_ .f32 0x40800000#32)))
      (sitofp .f32 floorQ))

/-- The second tap's row, min(floor + 1, 255). -/
def nextQ : IVec S4x256 32 :=
  minsi (addi floorQ (broadcastInDim S4x256 ![] bcast_S_S4x256 (constantI S_ 32 1#32)))
    (broadcastInDim S4x256 ![] bcast_S_S4x256 (constantI S_ 32 255#32))

/-- jnp's index normalisation: a negative row index is moved up by the axis length 256. -/
def wrapIdx (q : IVec S4x256 32) : IVec S4x256x1 32 :=
  broadcastInDim S4x256x1 ![0, 1] bcast_S4x256_S4x256x1_0_1
    (select (cmpi .slt q (broadcastInDim S4x256 ![] bcast_S_S4x256 (constantI S_ 32 0#32)))
      (addi q (broadcastInDim S4x256 ![] bcast_S_S4x256 (constantI S_ 32 256#32))) q)

/-- The rows of x picked along the frequency axis: [b, c, kk, i, t] = x[b, c, idx[kk, i], t]. -/
def taps (x : FVec F S8x32x256x512 .f32) (q : IVec S4x256 32) : FVec F S8x32x4x256x512 .f32 :=
  Host.gather gather_S8x32x256x512_S4x256x1_S8x32x4x256x512_014_2_n_n_2_2_8321512 x (wrapIdx q)

/-- The weights laid along axes (kk, i) of a [1,1,4,256,1] block. -/
def wBlock : FVec F S1x1x4x256x1 .f32 :=
  broadcastInDim S1x1x4x256x1 ![2, 3] bcast_S4x256_S1x1x4x256x1_2_3 (wRef (F := F))

/-- The two-tap mix in the layout [b, c, kk, i, t]. -/
def mix (x : FVec F S8x32x256x512 .f32) : FVec F S8x32x4x256x512 .f32 :=
  addf
    (mulf (broadcastInDim S8x32x4x256x512 ![0, 1, 2, 3, 4] bcast_S1x1x4x256x1_S8x32x4x256x512_0_1_2_3_4 (wBlock (F := F)))
      (taps x floorQ))
    (mulf
      (broadcastInDim S8x32x4x256x512 ![0, 1, 2, 3, 4] bcast_S1x1x4x256x1_S8x32x4x256x512_0_1_2_3_4
        (subf (broadcastInDim S1x1x4x256x1 ![] bcast_S_S1x1x4x256x1 (constant S_ .f32 0x3F800000#32)) (wBlock (F := F))))
      (taps x nextQ))

/-- The same in the layout [b, kk, c, i, t]. -/
def mixT (x : FVec F S8x32x256x512 .f32) : FVec F S8x4x32x256x512 .f32 :=
  transpose S8x4x32x256x512 [0, 2, 1, 3, 4] (mix x) transposes_S8x32x4x256x512_S8x4x32x256x512_0_2_1_3_4

end Cert.ReferenceIdeal.RefTerm

end
-- ==== Proof.RefRun.lean ====
/-
  The reference's @main as ONE straight line of its 72 host operations, and its run read back.

  @main calls @floor_divide, which calls @_where.  A call executes the callee's body on the operands, each value of
  the body in a buffer of its own, so the program is the flat list below: @main's first eleven operations, the
  sixteen of @floor_divide over the call's buffers, the one select of @_where, and @main's remaining forty-four.
  From any memory every weakly fair execution terminates with every buffer at the fold of the operations' results
  over the launch contents; at the result buffer that fold is the merge of the two leading channel axes of
  RefTerm.mixT applied to the argument, and the argument buffer is unchanged.
-/
import proofs.«165772_j28363964023074_2_alg».proof.Proof.Gen.ReferenceIdeal
import proofs.«165772_j28363964023074_2_alg».proof.Proof.RefTerm
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The 72 operations in program order, the two callees' bodies written out at their call sites. -/
abbrev ops : List (HloOp τ sig (Elt F)) :=
  [
    StableHlo.nullary main_v0 (iotaInDim S4 32 0),
    StableHlo.nullary main_c (constantI S_ 32 1#32),
    StableHlo.unary main_c main_v1 (broadcastInDim S4 ![] bcast_S_S4 : (⟨S_, .i32⟩ : BufTy).Contents (Elt F) → (⟨S4, .i32⟩ : BufTy).Contents (Elt F)),
    StableHlo.binary main_v1 main_v0 main_v2 (addi : (⟨S4, .i32⟩ : BufTy).Contents (Elt F) → (⟨S4, .i32⟩ : BufTy).Contents (Elt F) → (⟨S4, .i32⟩ : BufTy).Contents (Elt F)),
    StableHlo.nullary main_v3 (iotaInDim S256 32 0),
    StableHlo.unary main_v3 main_v4 (broadcastInDim S1x256 ![1] bcast_S256_S1x256_1 : (⟨S256, .i32⟩ : BufTy).Contents (Elt F) → (⟨S1x256, .i32⟩ : BufTy).Contents (Elt F)),
    StableHlo.unary main_v2 main_v5 (broadcastInDim S4x1 ![0] bcast_S4_S4x1_0 : (⟨S4, .i32⟩ : BufTy).Contents (Elt F) → (⟨S4x1, .i32⟩ : BufTy).Contents (Elt F)),
    StableHlo.unary main_v4 main_v6 (broadcastInDim S4x256 ![0, 1] bcast_S1x256_S4x256_0_1 : (⟨S1x256, .i32⟩ : BufTy).Contents (Elt F) → (⟨S4x256, .i32⟩ : BufTy).Contents (Elt F)),
    StableHlo.unary main_v5 main_v7 (broadcastInDim S4x256 ![0, 1] bcast_S4x1_S4x256_0_1 : (⟨S4x1, .i32⟩ : BufTy).Contents (Elt F) → (⟨S4x256, .i32⟩ : BufTy).Contents (Elt F)),
    StableHlo.binary main_v6 main_v7 main_v8 (muli : (⟨S4x256, .i32⟩ : BufTy).Contents (Elt F) → (⟨S4x256, .i32⟩ : BufTy).Contents (Elt F) → (⟨S4x256, .i32⟩ : BufTy).Contents (Elt F)),
    StableHlo.nullary main_c_0 (constantI S_ 32 4#32),
    StableHlo.TRef.unary (.of main_c_0) main_call0.v0 id,
    StableHlo.TRef.unary main_call0.v0 main_call0.v1 (broadcastInDim S4x256 ![] bcast_S_S4x256),
    StableHlo.TRef.binary (.of main_v8) main_call0.v1 main_call0.v2 Host.divsi,
    StableHlo.TRef.unary (.of main_v8) main_call0.v3 signi,
    StableHlo.TRef.unary main_call0.v0 main_call0.v4 signi,
    StableHlo.TRef.unary main_call0.v4 main_call0.v5 (broadcastInDim S4x256 ![] bcast_S_S4x256),
    StableHlo.TRef.binary main_call0.v3 main_call0.v5 main_call0.v6 (cmpi .ne),
    StableHlo.TRef.unary main_call0.v0 main_call0.v7 (broadcastInDim S4x256 ![] bcast_S_S4x256),
    StableHlo.TRef.binary (.of main_v8) main_call0.v7 main_call0.v8 Host.remsi,
    StableHlo.TRef.nullary main_call0.c (constantI S_ 32 0#32),
    StableHlo.TRef.unary main_call0.c main_call0.v9 (broadcastInDim S4x256 ![] bcast_S_S4x256),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S4x256 ![] bcast_S_S4x256),
    StableHlo.TRef.binary main_call0.v2 main_call0.v12 main_call0.v13 subi,
    StableHlo.TRef.ternary main_call0.v11 main_call0.v13 main_call0.v2 main_call0.call0.v0 select,
    StableHlo.unary main_v8 main_v10 (sitofp .f32 : (⟨S4x256, .i32⟩ : BufTy).Contents (Elt F) → (⟨S4x256, .f32⟩ : BufTy).Contents (Elt F)),
    StableHlo.nullary main_cst (constant S_ .f32 0x40800000#32),
    StableHlo.unary main_cst main_v11 (broadcastInDim S4x256 ![] bcast_S_S4x256 : (⟨S_, .f32⟩ : BufTy).Contents (Elt F) → (⟨S4x256, .f32⟩ : BufTy).Contents (Elt F)),
    StableHlo.binary main_v10 main_v11 main_v12 (Host.divf : (⟨S4x256, .f32⟩ : BufTy).Contents (Elt F) → (⟨S4x256, .f32⟩ : BufTy).Contents (Elt F) → (⟨S4x256, .f32⟩ : BufTy).Contents (Elt F)),
    StableHlo.unary main_v9 main_v13 (sitofp .f32 : (⟨S4x256, .i32⟩ : BufTy).Contents (Elt F) → (⟨S4x256, .f32⟩ : BufTy).Contents (Elt F)),
    StableHlo.binary main_v12 main_v13 main_v14 (subf : (⟨S4x256, .f32⟩ : BufTy).Contents (Elt F) → (⟨S4x256, .f32⟩ : BufTy).Contents (Elt F) → (⟨S4x256, .f32⟩ : BufTy).Contents (Elt F)),
    StableHlo.nullary main_cst_1 (constant S_ .f32 0x3F800000#32),
    StableHlo.unary main_cst_1 main_v15 (broadcastInDim S4x256 ![] bcast_S_S4x256 : (⟨S_, .f32⟩ : BufTy).Contents (Elt F) → (⟨S4x256, .f32⟩ : BufTy).Contents (Elt F)),
    StableHlo.binary main_v15 main_v14 main_v16 (subf : (⟨S4x256, .f32⟩ : BufTy).Contents (Elt F) → (⟨S4x256, .f32⟩ : BufTy).Contents (Elt F) → (⟨S4x256, .f32⟩ : BufTy).Contents (Elt F)),
    StableHlo.nullary main_c_2 (constantI S_ 32 1#32),
    StableHlo.unary main_c_2 main_v17 (broadcastInDim S4x256 ![] bcast_S_S4x256 : (⟨S_, .i32⟩ : BufTy).Contents (Elt F) → (⟨S4x256, .i32⟩ : BufTy).Contents (Elt F)),
    StableHlo.binary main_v9 main_v17 main_v18 (addi : (⟨S4x256, .i32⟩ : BufTy).Contents (Elt F) → (⟨S4x256, .i32⟩ : BufTy).Contents (Elt F) → (⟨S4x256, .i32⟩ : BufTy).Contents (Elt F)),
    StableHlo.nullary main_c_3 (constantI S_ 32 255#32),
    StableHlo.unary main_c_3 main_v19 (broadcastInDim S4x256 ![] bcast_S_S4x256 : (⟨S_, .i32⟩ : BufTy).Contents (Elt F) → (⟨S4x256, .i32⟩ : BufTy).Contents (Elt F)),
    StableHlo.binary main_v18 main_v19 main_v20 (minsi : (⟨S4x256, .i32⟩ : BufTy).Contents (Elt F) → (⟨S4x256, .i32⟩ : BufTy).Contents (Elt F) → (⟨S4x256, .i32⟩ : BufTy).Contents (Elt F)),
    StableHlo.nullary main_c_4 (constantI S_ 32 0#32),
    StableHlo.unary main_c_4 main_v21 (broadcastInDim S4x256 ![] bcast_S_S4x256 : (⟨S_, .i32⟩ : BufTy).Contents (Elt F) → (⟨S4x256, .i32⟩ : BufTy).Contents (Elt F)),
    StableHlo.binary main_v9 main_v21 main_v22 (cmpi .slt : (⟨S4x256, .i32⟩ : BufTy).Contents (Elt F) → (⟨S4x256, .i32⟩ : BufTy).Contents (Elt F) → (⟨S4x256, .i1⟩ : BufTy).Contents (Elt F)),
    StableHlo.nullary main_c_5 (constantI S_ 32 256#32),
    StableHlo.unary main_c_5 main_v23 (broadcastInDim S4x256 ![] bcast_S_S4x256 : (⟨S_, .i32⟩ : BufTy).Contents (Elt F) → (⟨S4x256, .i32⟩ : BufTy).Contents (Elt F)),
    StableHlo.binary main_v9 main_v23 main_v24 (addi : (⟨S4x256, .i32⟩ : BufTy).Contents (Elt F) → (⟨S4x256, .i32⟩ : BufTy).Contents (Elt F) → (⟨S4x256, .i32⟩ : BufTy).Contents (Elt F)),
    StableHlo.ternary main_v22 main_v24 main_v9 main_v25 (select : (⟨S4x256, .i1⟩ : BufTy).Contents (Elt F) → (⟨S4x256, .i32⟩ : BufTy).Contents (Elt F) → (⟨S4x256, .i32⟩ : BufTy).Contents (Elt F) → (⟨S4x256, .i32⟩ : BufTy).Contents (Elt F)),
    StableHlo.unary main_v25 main_v26 (broadcastInDim S4x256x1 ![0, 1] bcast_S4x256_S4x256x1_0_1 : (⟨S4x256, .i32⟩ : BufTy).Contents (Elt F) → (⟨S4x256x1, .i32⟩ : BufTy).Contents (Elt F)),
    StableHlo.binary main_arg0 main_v26 main_v27 ((fun x i => Host.gather gather_S8x32x256x512_S4x256x1_S8x32x4x256x512_014_2_n_n_2_2_8321512 x i) : (⟨S8x32x256x512, .f32⟩ : BufTy).Contents (Elt F) → (⟨S4x256x1, .i32⟩ : BufTy).Contents (Elt F) → (⟨S8x32x4x256x512, .f32⟩ : BufTy).Contents (Elt F)),
    StableHlo.nullary main_c_6 (constantI S_ 32 0#32),
    StableHlo.unary main_c_6 main_v28 (broadcastInDim S4x256 ![] bcast_S_S4x256 : (⟨S_, .i32⟩ : BufTy).Contents (Elt F) → (⟨S4x256, .i32⟩ : BufTy).Contents (Elt F)),
    StableHlo.binary main_v20 main_v28 main_v29 (cmpi .slt : (⟨S4x256, .i32⟩ : BufTy).Contents (Elt F) → (⟨S4x256, .i32⟩ : BufTy).Contents (Elt F) → (⟨S4x256, .i1⟩ : BufTy).Contents (Elt F)),
    StableHlo.nullary main_c_7 (constantI S_ 32 256#32),
    StableHlo.unary main_c_7 main_v30 (broadcastInDim S4x256 ![] bcast_S_S4x256 : (⟨S_, .i32⟩ : BufTy).Contents (Elt F) → (⟨S4x256, .i32⟩ : BufTy).Contents (Elt F)),
    StableHlo.binary main_v20 main_v30 main_v31 (addi : (⟨S4x256, .i32⟩ : BufTy).Contents (Elt F) → (⟨S4x256, .i32⟩ : BufTy).Contents (Elt F) → (⟨S4x256, .i32⟩ : BufTy).Contents (Elt F)),
    StableHlo.ternary main_v29 main_v31 main_v20 main_v32 (select : (⟨S4x256, .i1⟩ : BufTy).Contents (Elt F) → (⟨S4x256, .i32⟩ : BufTy).Contents (Elt F) → (⟨S4x256, .i32⟩ : BufTy).Contents (Elt F) → (⟨S4x256, .i32⟩ : BufTy).Contents (Elt F)),
    StableHlo.unary main_v32 main_v33 (broadcastInDim S4x256x1 ![0, 1] bcast_S4x256_S4x256x1_0_1 : (⟨S4x256, .i32⟩ : BufTy).Contents (Elt F) → (⟨S4x256x1, .i32⟩ : BufTy).Contents (Elt F)),
    StableHlo.binary main_arg0 main_v33 main_v34 ((fun x i => Host.gather gather_S8x32x256x512_S4x256x1_S8x32x4x256x512_014_2_n_n_2_2_8321512 x i) : (⟨S8x32x256x512, .f32⟩ : BufTy).Contents (Elt F) → (⟨S4x256x1, .i32⟩ : BufTy).Contents (Elt F) → (⟨S8x32x4x256x512, .f32⟩ : BufTy).Contents (Elt F)),
    StableHlo.unary main_v16 main_v35 (broadcastInDim S1x1x4x256x1 ![2, 3] bcast_S4x256_S1x1x4x256x1_2_3 : (⟨S4x256, .f32⟩ : BufTy).Contents (Elt F) → (⟨S1x1x4x256x1, .f32⟩ : BufTy).Contents (Elt F)),
    StableHlo.unary main_v35 main_v36 (broadcastInDim S8x32x4x256x512 ![0, 1, 2, 3, 4] bcast_S1x1x4x256x1_S8x32x4x256x512_0_1_2_3_4 : (⟨S1x1x4x256x1, .f32⟩ : BufTy).Contents (Elt F) → (⟨S8x32x4x256x512, .f32⟩ : BufTy).Contents (Elt F)),
    StableHlo.binary main_v36 main_v27 main_v37 (mulf : (⟨S8x32x4x256x512, .f32⟩ : BufTy).Contents (Elt F) → (⟨S8x32x4x256x512, .f32⟩ : BufTy).Contents (Elt F) → (⟨S8x32x4x256x512, .f32⟩ : BufTy).Contents (Elt F)),
    StableHlo.nullary main_cst_8 (constant S_ .f32 0x3F800000#32),
    StableHlo.unary main_cst_8 main_v38 (broadcastInDim S1x1x4x256x1 ![] bcast_S_S1x1x4x256x1 : (⟨S_, .f32⟩ : BufTy).Contents (Elt F) → (⟨S1x1x4x256x1, .f32⟩ : BufTy).Contents (Elt F)),
    StableHlo.binary main_v38 main_v35 main_v39 (subf : (⟨S1x1x4x256x1, .f32⟩ : BufTy).Contents (Elt F) → (⟨S1x1x4x256x1, .f32⟩ : BufTy).Contents (Elt F) → (⟨S1x1x4x256x1, .f32⟩ : BufTy).Contents (Elt F)),
    StableHlo.unary main_v39 main_v40 (broadcastInDim S8x32x4x256x512 ![0, 1, 2, 3, 4] bcast_S1x1x4x256x1_S8x32x4x256x512_0_1_2_3_4 : (⟨S1x1x4x256x1, .f32⟩ : BufTy).Contents (Elt F) → (⟨S8x32x4x256x512, .f32⟩ : BufTy).Contents (Elt F)),
    StableHlo.binary main_v40 main_v34 main_v41 (mulf : (⟨S8x32x4x256x512, .f32⟩ : BufTy).Contents (Elt F) → (⟨S8x32x4x256x512, .f32⟩ : BufTy).Contents (Elt F) → (⟨S8x32x4x256x512, .f32⟩ : BufTy).Contents (Elt F)),
    StableHlo.binary main_v37 main_v41 main_v42 (addf : (⟨S8x32x4x256x512, .f32⟩ : BufTy).Contents (Elt F) → (⟨S8x32x4x256x512, .f32⟩ : BufTy).Contents (Elt F) → (⟨S8x32x4x256x512, .f32⟩ : BufTy).Contents (Elt F)),
    StableHlo.unary main_v42 main_v43 ((transpose S8x4x32x256x512 [0, 2, 1, 3, 4] · transposes_S8x32x4x256x512_S8x4x32x256x512_0_2_1_3_4) : (⟨S8x32x4x256x512, .f32⟩ : BufTy).Contents (Elt F) → (⟨S8x4x32x256x512, .f32⟩ : BufTy).Contents (Elt F)),
    StableHlo.reshape main_v43 main_v44 rfl shapeCasts_S8x4x32x256x512_S8x128x256x512 ]

set_option maxRecDepth 4096 in
set_option maxHeartbeats 4000000 in
/-- @main is that straight line: the callees' definitions unfolded at their calls, both sides are one chain of
    steps once sequencing is reassociated. -/
theorem main_eq (c : Dev nD) : main (F := F) c = seq ops := by
  simp only [main, fn_floor_divide.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨
    nullary_bufs_sub .., nullary_bufs_sub .., unary_bufs_sub .., binary_bufs_sub .., nullary_bufs_sub .., unary_bufs_sub ..,
    unary_bufs_sub .., unary_bufs_sub .., unary_bufs_sub .., binary_bufs_sub .., nullary_bufs_sub .., unary_bufs_sub ..,
    unary_bufs_sub .., binary_bufs_sub .., unary_bufs_sub .., unary_bufs_sub .., unary_bufs_sub .., binary_bufs_sub ..,
    unary_bufs_sub .., binary_bufs_sub .., nullary_bufs_sub .., unary_bufs_sub .., binary_bufs_sub .., binary_bufs_sub ..,
    nullary_bufs_sub .., unary_bufs_sub .., binary_bufs_sub .., ternary_bufs_sub .., unary_bufs_sub .., nullary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., binary_bufs_sub .., nullary_bufs_sub .., unary_bufs_sub ..,
    binary_bufs_sub .., unary_bufs_sub .., binary_bufs_sub .., binary_bufs_sub .., unary_bufs_sub .., reshape_bufs_sub .. ⟩

/-- On every device, for any float values, from any memory with zero counters: every weakly fair execution of @main
    terminates, and every final state has each buffer at the fold of the operations' results over the launch
    contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

attribute [local irreducible] Host.gather Host.divsi Host.remsi in
set_option maxRecDepth 8192 in
set_option maxHeartbeats 4000000 in
/-- The fold at the result buffer: each operation's result read at its own buffer is its function applied to the
    contents of its operands' buffers, and at any other buffer what was there.  Composed, the seventy-two results are
    RefTerm.mixT of the argument with the axes (k, c) merged.  The gather and the two integer divisions are kept
    folded meanwhile: the equation never looks inside them. -/
theorem out_eq (V : Valuation τ sig (Elt F)) :
    after ops V (main_v44 : DevRef τ sig)
      = shapeCast S8x128x256x512 (RefTerm.mixT (F := F) (V (main_arg0 : DevRef τ sig)))
          shapeCasts_S8x4x32x256x512_S8x128x256x512 := by
  after_results_simp
  rfl

set_option maxRecDepth 8192 in
set_option maxHeartbeats 4000000 in
/-- No operation writes the argument's buffer. -/
theorem arg0_eq (V : Valuation τ sig (Elt F)) :
    after ops V (main_arg0 : DevRef τ sig) = V (main_arg0 : DevRef τ sig) := by
  after_results_simp

/-- On every device, for any float values, from any memory with zero counters: every weakly fair execution of @main
    terminates with the result buffer at RefTerm.mixT of the argument's launch contents, axes (k, c) merged, and the
    argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v44)
          = shapeCast S8x128x256x512 (RefTerm.mixT (F := F) (m ((c.tc : Thread nD τ).loc main_arg0)))
              shapeCasts_S8x4x32x256x512_S8x128x256x512
      ∧ r.2.mem ((c.tc : Thread nD τ).loc main_arg0) = m ((c.tc : Thread nD τ).loc main_arg0) :=
  (θ_run defs _ _).mono (fun _ h c => ⟨(h c main_v44).trans (out_eq _), (h c main_arg0).trans (arg0_eq _)⟩)
    (run_main m ρ)

end Cert.ReferenceIdeal.RefRun

end
-- ==== Proof.IntFacts.lean ====
/-
  The integer chain of the host evaluation, as scalar functions of (kk, i), and its values.

  The product is  i * (1 + kk)  on 32-bit words; the truncated quotient by 4 is corrected by one where the signs of
  product and divisor differ and the remainder is non-zero (never, here: everything is non-negative); the second tap
  is the quotient plus one, capped at 255; an index is moved up by 256 when negative (never, here).  Read as signed
  integers the words are the natural numbers  i k,  floor (i k / 4)  and  min (floor (i k / 4) + 1, 255):  decided
  over the 4 * 256 pairs.
-/
import Idealize.ShloMosaic.PureOps
import proofs.«165772_j28363964023074_2_alg».proof.Proof.Spec

namespace Cert.Harmonic

open Idealize.ShloMosaic

/-- The sign of a word as a word: 0, -1 or 1. -/
def sSign (x : BitVec 32) : BitVec 32 := if x = 0 then 0 else if x.msb then -1 else 1

def sProd (kk : Fin 4) (i : Fin 256) : BitVec 32 :=
  IntOp.muli (BitVec.ofNat 32 i.val) (IntOp.addi 1#32 (BitVec.ofNat 32 kk.val))

def sTrunc (kk : Fin 4) (i : Fin 256) : BitVec 32 := IntOp.divsi .host (sProd kk i) 4#32

def sFloor (kk : Fin 4) (i : Fin 256) : BitVec 32 :=
  Scalar.select
    (IntOp.andi (IntOp.cmpi .ne (sSign (sProd kk i)) (sSign 4#32)) (IntOp.cmpi .ne (IntOp.remsi .host (sProd kk i) 4#32) 0#32))
    (IntOp.subi (sTrunc kk i) 1#32) (sTrunc kk i)

def sNext (kk : Fin 4) (i : Fin 256) : BitVec 32 := IntOp.minsi (IntOp.addi (sFloor kk i) 1#32) 255#32

def sWrap (q : BitVec 32) : BitVec 32 := Scalar.select (IntOp.cmpi .slt q 0#32) (IntOp.addi q 256#32) q

/-- The words' values, over all pairs. -/
theorem int_facts : ∀ (kk : Fin 4) (i : Fin 256),
    (sProd kk i).toInt = ((i.val * (kk.val + 1) : ℕ) : ℤ)
    ∧ (sFloor kk i).toInt = ((i.val * (kk.val + 1) / 4 : ℕ) : ℤ)
    ∧ min (sWrap (sFloor kk i)).toInt.toNat 255 = i.val * (kk.val + 1) / 4
    ∧ min (sWrap (sNext kk i)).toInt.toNat 255 = min (i.val * (kk.val + 1) / 4 + 1) 255 := by
  decide +kernel

theorem sProd_toInt (kk : Fin 4) (i : Fin 256) : (sProd kk i).toInt = ((prodN kk i : ℕ) : ℤ) := (int_facts kk i).1
theorem sFloor_toInt (kk : Fin 4) (i : Fin 256) : (sFloor kk i).toInt = ((tapN kk i : ℕ) : ℤ) := (int_facts kk i).2.1
theorem wrap_floor (kk : Fin 4) (i : Fin 256) : min (sWrap (sFloor kk i)).toInt.toNat 255 = tapN kk i := (int_facts kk i).2.2.1
theorem wrap_next (kk : Fin 4) (i : Fin 256) : min (sWrap (sNext kk i)).toInt.toNat 255 = min (tapN kk i + 1) 255 :=
  (int_facts kk i).2.2.2

end Cert.Harmonic
-- ==== Proof.RefGather.lean ====
/-
  The frequency-axis gather read at an index.

  The operand is [8, 32, 256, 512], the start indices [4, 256, 1] and the result [8, 32, 4, 256, 512]: the result's
  axes 0, 1, 4 are the operand's axes 0, 1, 3 whole, the operand's axis 2 is collapsed and its start is the one
  component of the start index at the result's batch coordinates (kk, i), read signed and clamped into [0, 255].
  So the result at (b, c, kk, i, t) is the operand at (b, c, clamp idx[kk, i, 0], t).
-/
import proofs.«165772_j28363964023074_2_alg».proof.ReferenceIdeal
import Idealize.ShloMosaic.Lib.ValueIdx

noncomputable section

namespace Cert.ReferenceIdeal.RefValue

open Cert.ReferenceIdeal Idealize.ShloMosaic Idealize.ShloMosaic.ValueIdx

variable [Facts₀]

/-- The gather's dimension numbers. -/
local notation "gd" => gather_S8x32x256x512_S4x256x1_S8x32x4x256x512_014_2_n_n_2_2_8321512

/-- The start-indices index the result index (b, c, kk, i, t) reads its one start component at: (kk, i, 0). -/
theorem gather_siIdx (b : Fin 8) (c : Fin 32) (kk : Fin 4) (i : Fin 256) (t : Fin 512) (h2 : 2 < S8x32x256x512.rank)
    (h : List.idxOf (⟨2, h2⟩ : Fin S8x32x256x512.rank) (gd).startIndexMap < (gd).startIndexMap.length) :
    (gd).siIdx (ix5 b c kk i t) ⟨List.idxOf (⟨2, h2⟩ : Fin S8x32x256x512.rank) (gd).startIndexMap, h⟩
      = ix3 kk i (0 : Fin 1) := by
  funext a; refine Fin.ext ?_
  match a with
  | ⟨0, _⟩ => rfl
  | ⟨1, _⟩ => rfl
  | ⟨2, _⟩ => rfl

/-- An operand axis other than axis 2 is not in the start index map … -/
theorem not_mem_sim (a : Fin S8x32x256x512.rank) (ha : a.val ≠ 2) : a ∉ (gd).startIndexMap := by
  intro h
  have h' : a ∈ [(2 : Fin S8x32x256x512.rank)] := h
  exact ha (congrArg Fin.val (List.mem_singleton.mp h'))

/-- … and is kept: neither collapsed nor batching. -/
theorem mem_sKept_of (a : Fin S8x32x256x512.rank) (ha : a.val ≠ 2) : a ∈ (gd).sKept :=
  (GatherDims.mem_sKept _ _).mpr ⟨fun h => by
    have h' : a ∈ [(2 : Fin S8x32x256x512.rank)] := h
    exact ha (congrArg Fin.val (List.mem_singleton.mp h')), List.not_mem_nil⟩

/-- The operand's kept axes are 0, 1 and 3. -/
theorem sKept_eq : (gd).sKept = [(0 : Fin S8x32x256x512.rank), 1, 3] := by
  show S8x32x256x512.kept ([2] ++ []) = _
  decide

/-- The result's offset axis matching a kept operand axis, computed on the literal lists. -/
theorem offsetDims_at (a : Fin S8x32x256x512.rank) (m : Fin S8x32x4x256x512.rank)
    (h : List.idxOf a (gd).sKept < (gd).offsetDims.length)
    (hm : ([0, 1, 4] : List (Fin S8x32x4x256x512.rank))[List.idxOf a [(0 : Fin S8x32x256x512.rank), 1, 3]]? = some m) :
    (gd).offsetDims[List.idxOf a (gd).sKept]'h = m := by
  have h1 : (gd).offsetDims[List.idxOf a (gd).sKept]? = some m := by
    rw [sKept_eq]; exact hm
  obtain ⟨_, h2⟩ := List.getElem?_eq_some_iff.mp h1
  exact h2

/-- On an operand axis the start index map does not name the slice starts at 0. -/
theorem gather_start_zero (j : S8x32x4x256x512.Idx) (idx : IVec S4x256x1 32) (a : Fin S8x32x256x512.rank)
    (ha : a ∉ (gd).startIndexMap) : (gd).start j idx a = 0 := by
  unfold GatherDims.start
  exact dif_neg ha

/-- On a kept operand axis the offset coordinate is the result's coordinate on the matching offset axis. -/
theorem gather_off (j : S8x32x4x256x512.Idx) (a : Fin S8x32x256x512.rank) (ha : a ∈ (gd).sKept) :
    (gd).offCoord j a
      = (j ((gd).offsetDims[(gd).sKept.idxOf a]'(by rw [(gd).offset_length]; exact List.idxOf_lt_length_iff.2 ha))).val := by
  unfold GatherDims.offCoord
  exact dif_pos ha

/-- The gather at (b, c, kk, i, t) is the operand at (b, c, r, t), r the start index at (kk, i, 0) read signed and
    clamped into [0, 255]. -/
theorem gather_apply {α : Type} (x : S8x32x256x512.Idx → α) (idx : IVec S4x256x1 32)
    (b : Fin 8) (c : Fin 32) (kk : Fin 4) (i : Fin 256) (t : Fin 512) :
    Host.gather gd x idx (ix5 b c kk i t)
      = x (ix4 b c ⟨min (idx (ix3 kk i (0 : Fin 1))).toInt.toNat 255, by omega⟩ t) := by
  unfold Host.gather
  congr 1
  funext a
  refine Fin.ext ?_
  show (gd).start (ix5 b c kk i t) idx a + (gd).batchCoord (ix5 b c kk i t) a + (gd).offCoord (ix5 b c kk i t) a = _
  rw [GatherDims.batchCoord_eq_zero _ _ _ List.not_mem_nil]
  match a with
  | ⟨0, h0⟩ =>
    rw [gather_start_zero _ _ _ (not_mem_sim _ (by show (0 : ℕ) ≠ 2; omega)),
      gather_off _ _ (mem_sKept_of _ (by show (0 : ℕ) ≠ 2; omega))]
    rw [offsetDims_at ⟨0, h0⟩ 0 _ rfl]
    simp only [Nat.zero_add]
  | ⟨1, h1⟩ =>
    rw [gather_start_zero _ _ _ (not_mem_sim _ (by show (1 : ℕ) ≠ 2; omega)),
      gather_off _ _ (mem_sKept_of _ (by show (1 : ℕ) ≠ 2; omega))]
    rw [offsetDims_at ⟨1, h1⟩ 1 _ rfl]
    simp only [Nat.zero_add]
  | ⟨2, h2⟩ =>
    have hm : (⟨2, h2⟩ : Fin S8x32x256x512.rank) ∈ (gd).startIndexMap := List.mem_singleton.mpr rfl
    have hc : (⟨2, h2⟩ : Fin S8x32x256x512.rank) ∈ (gd).collapsedSliceDims := List.mem_singleton.mpr rfl
    rw [GatherDims.offCoord_eq_zero _ _ _ (fun h => ((GatherDims.mem_sKept _ _).mp h).1 hc)]
    unfold GatherDims.start
    rw [dif_pos hm, gather_siIdx b c kk i t h2]
    rfl
  | ⟨3, h3⟩ =>
    rw [gather_start_zero _ _ _ (not_mem_sim _ (by show (3 : ℕ) ≠ 2; omega)),
      gather_off _ _ (mem_sKept_of _ (by show (3 : ℕ) ≠ 2; omega))]
    rw [offsetDims_at ⟨3, h3⟩ 4 _ rfl]
    simp only [Nat.zero_add]

end Cert.ReferenceIdeal.RefValue

end
-- ==== Proof.RefWeights.lean ====
/-
  The host evaluation's tables read at an index.

  Every operation that builds the [4, 256] tables is elementwise or a broadcast, so at the index (kk, i) the product,
  the floor quotient and the second tap's row are the scalar chain of IntFacts at (kk, i), and the index
  normalisation of a table q at (kk, i, 0) is the scalar wrap of q (kk, i).  The first tap's weight at (kk, i) is
  1 - (n / 4 - floor (n / 4)) with n = i (kk + 1): the word n and the word floor (n / 4) converted exactly, the
  constants 1 and 4 exactly, and the division by 4 exact on the extended reals.
-/
import proofs.«165772_j28363964023074_2_alg».proof.Proof.Gen.ReferenceIdeal
import proofs.«165772_j28363964023074_2_alg».proof.Proof.RefTerm
import proofs.«165772_j28363964023074_2_alg».proof.Proof.IntFacts
import Idealize.ShloMosaic.Lib.Pipeline.Value
import Idealize.ShloMosaic.Lib.ValueIdx
import Idealize.ShloMosaic.Lib.ValueLayout
import Idealize.ShloMosaic.Lib.IdealHost

noncomputable section

namespace Cert.ReferenceIdeal.RefValue

open Cert.ReferenceIdeal Cert.ReferenceIdeal.Gen Cert.Harmonic Idealize.ShloMosaic Idealize.ShloMosaic.ValueIdx

/-- The product table at (kk, i) is the word i * (1 + kk). -/
theorem prodI_apply (kk : Fin 4) (i : Fin 256) : RefTerm.prodI (ix2 kk i) = sProd kk i := rfl

/-- The truncated quotient at (kk, i). -/
theorem truncQ_apply (kk : Fin 4) (i : Fin 256) : RefTerm.truncQ (ix2 kk i) = sTrunc kk i := rfl

/-- The floor quotient at (kk, i). -/
theorem floorQ_apply (kk : Fin 4) (i : Fin 256) : RefTerm.floorQ (ix2 kk i) = sFloor kk i := rfl

/-- The second tap's row at (kk, i). -/
theorem nextQ_apply (kk : Fin 4) (i : Fin 256) : RefTerm.nextQ (ix2 kk i) = sNext kk i := rfl

/-- The index normalisation of a table at (kk, i, 0) is the scalar wrap of the table's word at (kk, i). -/
theorem wrapIdx_apply (q : IVec S4x256 32) (kk : Fin 4) (i : Fin 256) :
    RefTerm.wrapIdx q (ix3 kk i (0 : Fin 1)) = sWrap (q (ix2 kk i)) := by
  unfold RefTerm.wrapIdx
  refine (broadcastInDim_apply _ _ _ _ (ix2 kk i) (fun a => ?_)).trans rfl
  match a with
  | ⟨0, _⟩ => rfl
  | ⟨1, _⟩ => rfl

/-- The first tap's weight at (kk, i) is the real number wgt kk i. -/
theorem wRef_apply (kk : Fin 4) (i : Fin 256) : RefTerm.wRef (F := Ideal) (ix2 kk i) = ((wgt kk i : ℝ) : EReal) := by
  have h : RefTerm.wRef (F := Ideal) (ix2 kk i)
      = Ideal.ofBits .f32 0x3F800000#32
        - (Ideal.div ((((sProd kk i).toInt : ℝ)) : EReal) (Ideal.ofBits .f32 0x40800000#32)
            - ((((sFloor kk i).toInt : ℝ)) : EReal)) := rfl
  rw [h, sProd_toInt, sFloor_toInt, ofBits_one, ofBits_four, Ideal.div_coe (by norm_num : (4 : ℝ) ≠ 0)]
  unfold wgt
  rw [← EReal.coe_mul, ← EReal.coe_sub, ← EReal.coe_sub]
  congr 1
  push_cast
  ring

end Cert.ReferenceIdeal.RefValue

end
-- ==== Proof.RefValue.lean ====
/-
  The reference's pure term IS the two-tap interpolation, at the ideal instance.

  Index by index.  At (b, kk, c, i, t) the transposed mix reads the mix at (b, c, kk, i, t): a sum of two products.
  The first factor of each is a [1, 1, 4, 256, 1] block broadcast over (b, c, t), read at (0, 0, kk, i, 0): the weight
  table at (kk, i), the real number w = 1 - (n / 4 - floor (n / 4)) with n = i (kk + 1), and 1 - w.  The second factor
  is the argument gathered along the frequency axis at the normalised, clamped row index: the words floor (n / 4) and
  min (floor (n / 4) + 1, 255) are non-negative and below 256, so the rows are the two taps.
-/
import proofs.«165772_j28363964023074_2_alg».proof.Proof.Gen.ReferenceIdeal
import proofs.«165772_j28363964023074_2_alg».proof.Proof.RefTerm
import proofs.«165772_j28363964023074_2_alg».proof.Proof.IntFacts
import proofs.«165772_j28363964023074_2_alg».proof.Proof.RefGather
import proofs.«165772_j28363964023074_2_alg».proof.Proof.RefWeights
import Idealize.ShloMosaic.Lib.Pipeline.Value
import Idealize.ShloMosaic.Lib.ValueIdx
import Idealize.ShloMosaic.Lib.IdealHost

noncomputable section

namespace Cert.ReferenceIdeal.RefValue

open Cert.ReferenceIdeal Cert.ReferenceIdeal.Gen Cert.Harmonic Idealize.ShloMosaic Idealize.ShloMosaic.ValueIdx

/-- A [1, 1, 4, 256, 1] block broadcast to [8, 32, 4, 256, 512] reads, at (b, c, kk, i, t), the block at (0, 0, kk, i, 0). -/
theorem bcast5_apply {α : Type} (h : S1x1x4x256x1.BroadcastsInDim S8x32x4x256x512 ![0, 1, 2, 3, 4])
    (y : S1x1x4x256x1.Idx → α) (b : Fin 8) (c : Fin 32) (kk : Fin 4) (i : Fin 256) (t : Fin 512) :
    broadcastInDim S8x32x4x256x512 ![0, 1, 2, 3, 4] h y (ix5 b c kk i t)
      = y (ix5 (0 : Fin 1) (0 : Fin 1) kk i (0 : Fin 1)) := by
  refine broadcastInDim_apply _ _ _ _ _ (fun a => ?_)
  match a with
  | ⟨0, _⟩ => rfl
  | ⟨1, _⟩ => rfl
  | ⟨2, _⟩ => rfl
  | ⟨3, _⟩ => rfl
  | ⟨4, _⟩ => rfl

/-- The weight block at (0, 0, kk, i, 0) is the weight table at (kk, i): the real number wgt kk i. -/
theorem wBlock_apply (kk : Fin 4) (i : Fin 256) :
    RefTerm.wBlock (F := Ideal) (ix5 (0 : Fin 1) (0 : Fin 1) kk i (0 : Fin 1)) = ((wgt kk i : ℝ) : EReal) := by
  unfold RefTerm.wBlock
  refine (broadcastInDim_apply _ _ _ _ (ix2 kk i) (fun a => ?_)).trans (wRef_apply kk i)
  match a with
  | ⟨0, _⟩ => rfl
  | ⟨1, _⟩ => rfl

/-- The rows gathered at the floor quotient are the first tap's. -/
theorem taps_floor (x : FVec Ideal S8x32x256x512 .f32) (b : Fin 8) (c : Fin 32) (kk : Fin 4) (i : Fin 256) (t : Fin 512) :
    RefTerm.taps x RefTerm.floorQ (ix5 b c kk i t) = x (ix4 b c (tap0 kk i) t) := by
  unfold RefTerm.taps
  refine (gather_apply x _ b c kk i t).trans ?_
  have hr : (⟨min (RefTerm.wrapIdx RefTerm.floorQ (ix3 kk i (0 : Fin 1))).toInt.toNat 255, by omega⟩ : Fin 256) = tap0 kk i :=
    Fin.ext (by
      show min (RefTerm.wrapIdx RefTerm.floorQ (ix3 kk i (0 : Fin 1))).toInt.toNat 255 = tapN kk i
      rw [wrapIdx_apply, floorQ_apply]; exact wrap_floor kk i)
  rw [hr]

/-- The rows gathered at the capped successor are the second tap's. -/
theorem taps_next (x : FVec Ideal S8x32x256x512 .f32) (b : Fin 8) (c : Fin 32) (kk : Fin 4) (i : Fin 256) (t : Fin 512) :
    RefTerm.taps x RefTerm.nextQ (ix5 b c kk i t) = x (ix4 b c (tap1 kk i) t) := by
  unfold RefTerm.taps
  refine (gather_apply x _ b c kk i t).trans ?_
  have hr : (⟨min (RefTerm.wrapIdx RefTerm.nextQ (ix3 kk i (0 : Fin 1))).toInt.toNat 255, by omega⟩ : Fin 256) = tap1 kk i :=
    Fin.ext (by
      show min (RefTerm.wrapIdx RefTerm.nextQ (ix3 kk i (0 : Fin 1))).toInt.toNat 255 = min (tapN kk i + 1) 255
      rw [wrapIdx_apply, nextQ_apply]; exact wrap_next kk i)
  rw [hr]

/-- The mix at (b, c, kk, i, t) is the interpolation of the plane (b, c) at harmonic kk, row i, column t. -/
theorem mix_apply (x : FVec Ideal S8x32x256x512 .f32) (b : Fin 8) (c : Fin 32) (kk : Fin 4) (i : Fin 256) (t : Fin 512) :
    RefTerm.mix (F := Ideal) x (ix5 b c kk i t) = blockFn (fun a t => x (ix4 b c a t)) kk i t := by
  unfold RefTerm.mix
  rw [addf_apply, mulf_apply, mulf_apply, bcast5_apply, bcast5_apply, subf_apply, wBlock_apply, taps_floor, taps_next,
    broadcastInDim_scalar_apply, constant_apply, ofBits_one]
  unfold blockFn
  rw [EReal.coe_one]

/-- The reference's pure term is the specification. -/
theorem mixT_eq (x : FVec Ideal S8x32x256x512 .f32) : RefTerm.mixT (F := Ideal) x = Cert.Harmonic.G5 x := by
  funext j
  obtain ⟨b, kk, c, i, t, rfl⟩ : ∃ (b : Fin 8) (kk : Fin 4) (c : Fin 32) (i : Fin 256) (t : Fin 512), j = ix5 b kk c i t :=
    ⟨j 0, j 1, j 2, j 3, j 4, eq_ix5 j⟩
  rw [G5_apply]
  unfold RefTerm.mixT
  refine (transpose_apply _ _ _ _ (ix5 b c kk i t) (fun a => ?_)).trans (mix_apply x b c kk i t)
  match a with
  | ⟨0, _⟩ => rfl
  | ⟨1, _⟩ => rfl
  | ⟨2, _⟩ => rfl
  | ⟨3, _⟩ => rfl
  | ⟨4, _⟩ => rfl

end Cert.ReferenceIdeal.RefValue

end
-- ==== Proof.lean ====
/-
  The certificate of the harmonic-lowering kernel against its jnp reference, on the extended reals.

  Both programs compute, for every batch b, channel c, harmonic k = 1..4, output frequency row i and time t, the
  two-tap interpolation along the frequency axis

      w(k, i) * x[b, c, floor (i k / 4), t] + (1 - w(k, i)) * x[b, c, min (floor (i k / 4) + 1, 255), t],
      w(k, i) = 1 - (i k / 4 - floor (i k / 4)),

  laid out as [b, (k - 1) * 32 + c, i, t].  The reference evaluates it literally (integer tables for the two tap rows, a float
  table for the weight, two gathers, a transpose and a reshape).  The kernel, per (b, c) plane, writes i = 4 q + r and
  uses  floor (i k / 4) = k q + floor (r k / 4)  and that the weight depends on r alone: for k < 4 it regroups the
  plane's first 64 k rows (and the same rows shifted by one) in groups of k, picks row floor (r k / 4) of each group,
  mixes with the constant weights 1 - ((r k) mod 4) / 4 and ((r k) mod 4) / 4, and interleaves the four residues; for k = 4 the
  quotient is i and the weight 1, and it copies the plane.  The two agree entry by entry (no finiteness is needed: a zero
  weight annihilates its tap on the extended reals as well, and the clamp at 255 only ever meets a zero weight).

  The modules: Spec (the interpolation and its row-group form), IntFacts (the reference's integer chain, decided),
  RefTerm / RefRun / RefValue (the reference's run, its result as one term, that term is the interpolation),
  KernelRows / KernelPay / KernelBlock / KernelArr (the kernel body's layout steps, its stored planes, its output block,
  the result array and the host's final reshape).
-/
import proofs.«165772_j28363964023074_2_alg».proof.Defs
import proofs.«165772_j28363964023074_2_alg».proof.Proof.Gen.Kernel
import proofs.«165772_j28363964023074_2_alg».proof.Proof.Gen.Kernel.Frame
import proofs.«165772_j28363964023074_2_alg».proof.Proof.Gen.KernelIdeal
import proofs.«165772_j28363964023074_2_alg».proof.Proof.Gen.KernelIdeal.Frame
import proofs.«165772_j28363964023074_2_alg».proof.Proof.Gen.ReferenceIdeal
import proofs.«165772_j28363964023074_2_alg».proof.Proof.Gen.Pre_finite_inputs
import proofs.«165772_j28363964023074_2_alg».proof.Proof.KernelArr
import proofs.«165772_j28363964023074_2_alg».proof.Proof.RefRun
import proofs.«165772_j28363964023074_2_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and leaves its argument alone. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's run, with its result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- The ideal pass rewrote nothing. -/
theorem preserves : Cert.preserves_Kernel_KernelIdeal := trivial

/-- Both results are the interpolation of the (agreeing) arguments with the channel axes merged. -/
theorem algebraic : Cert.algebraic_KernelIdeal_ReferenceIdeal := by
  intro m ρ m' ρ' _ hagree
  refine ⟨_, Cert.KernelIdeal.Arr.run m ρ, ?_⟩
  refine (θ_run Cert.ReferenceIdeal.defs _ _).mono (fun _ h c => ⟨(h c).1.trans ?_, (h c).2⟩)
    (Cert.ReferenceIdeal.RefRun.run (F := Ideal) m' ρ')
  rw [hagree c, Cert.ReferenceIdeal.RefValue.mixT_eq]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
